-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1600000x1 : Shape := ⟨2, ![1600000, 1]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 95
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S100000x64, .f32⟩
  | .hbm, ⟨49, _⟩ => ⟨S1600000x1, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S100000, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S1600000x1, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .f32⟩
  | .hbm, ⟨82, _⟩ => ⟨S1600000x64, .f32⟩
  | .hbm, ⟨83, _⟩ => ⟨S1600000x64, .f32⟩
  | .hbm, ⟨84, _⟩ => ⟨S_, .f32⟩
  | .hbm, ⟨85, _⟩ => ⟨S100000x64, .f32⟩
  | .hbm, ⟨86, _⟩ => ⟨S1600000x1, .i32⟩
  | .hbm, ⟨87, _⟩ => ⟨S100000x64, .f32⟩
  | .hbm, ⟨88, _⟩ => ⟨S100000, .f32⟩
  | .hbm, ⟨89, _⟩ => ⟨S100000x1, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 133
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x64, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000, .i32⟩
  | 73 => ⟨S1700000, .i32⟩
  | 74 => ⟨S1700000, .i32⟩
  | 75 => ⟨S_, .f32⟩
  | 76 => ⟨S100000, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S100000x64, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_v95 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  The program is three block-pipelined computations with stretches of host operations between them.  Its run is
  followed boundary by boundary: the buffer contents at the launch, after each host stretch, and after each
  pipelined computation (whose output array is then what its write-backs leave).  Every weakly fair execution
  terminates without a fault in a state whose unscoped buffers hold the last boundary's contents; read at the result
  buffer this names the result, and read at the argument buffers it says they are unchanged.
-/
import proofs.«137460_j21784074125836_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the seven argument arrays as launched. -/
theorem run_named : θ_run defs (onTc (τ := τ) (main (F := F))) ⟨m, fun _ => 0, ρ⟩ (fun r => ∀ c : Dev nD,
      r.2.mem ((c.tc : Thread nD τ).loc main_v71) = W8 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v71 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Named

end
-- ==== Proof.KernelTerms.lean ====
/-
  The host side of the idealized kernel, as whole-array terms of the argument arrays.

  The edge list is a 2 x 1600000 array of node ids: row 0 holds every edge's source, row 1 its target.  The degree of a
  node is the sum of the weights of the edges that arrive at it, plus 1 for a self loop: a scatter-add of the weights
  joined with 100000 ones, at the targets joined with the node ids 0 .. 99999.  d is the inverse square root of the
  degree where the degree is positive and 0 elsewhere.  A node id used to look a row up is first wrapped (an id below
  zero has 100000 added).  The normalised weight of an edge is d(source) * weight * d(target).  One round of
  aggregation of node features h adds, at every node, the rows that arrive along its edges, each scaled by its edge's
  normalised weight, and the node's own row scaled by d * d.  A bias vector reaches a pipelined computation as a
  one-row matrix.
-/
import proofs.«137460_j21784074125836_1_alg».proof.Proof.Gen.KernelIdeal.Launch

noncomputable section

namespace Cert.KernelIdeal.Terms

open Cert.KernelIdeal Cert.KernelIdeal.Gen Idealize.ShloMosaic

variable {F : FTy → Type} [FloatOps F]

/-- The edges' source ids: row 0 of the edge list. -/
def rowK (ei : IVec S2x1600000 32) : IVec S1600000 32 :=
  shapeCast _ (extractStridedSlice S1x1600000 ![0, 0] ei slices_S2x1600000_S1x1600000_0_0) shapeCasts_S1x1600000_S1600000

/-- The edges' target ids: row 1 of the edge list. -/
def colK (ei : IVec S2x1600000 32) : IVec S1600000 32 :=
  shapeCast _ (extractStridedSlice S1x1600000 ![1, 0] ei slices_S2x1600000_S1x1600000_1_0) shapeCasts_S1x1600000_S1600000

/-- The degrees: the edge weights and a 1 per node, summed at the targets and at the node itself. -/
def degK (ei : IVec S2x1600000 32) (ew : FVec F S1600000 .f32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0
      (concatenate S1700000 0 [⟨S1600000, colK ei⟩, ⟨S100000, iotaInDim S100000 32 0⟩] concatenates_S1600000_S100000_S1700000_d0))
    (concatenate S1700000 0 [⟨S1600000, ew⟩, ⟨S100000, broadcastInDim S100000 ![] bcast_S_S100000 (constant S_ .f32 0x3F800000#32)⟩]
      concatenates_S1600000_S100000_S1700000_d0)

/-- d: the inverse square root of a positive degree, 0 otherwise. -/
def dinvK (ei : IVec S2x1600000 32) (ew : FVec F S1600000 .f32) : FVec F S100000 .f32 :=
  select (cmpf .ogt (degK ei ew) (broadcastInDim S100000 ![] bcast_S_S100000 (constant S_ .f32 0x00000000#32)))
    (Host.rsqrt (degK ei ew))
    (broadcastInDim S100000 ![] bcast_S_S100000 (id (constant S_ .f32 0x00000000#32)))

/-- A node id wrapped: an id below zero has 100000 added. -/
def wrapK (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

/-- The normalised edge weights: d at the source, times the weight, times d at the target. -/
def normK (d : FVec F S100000 .f32) (row col : IVec S1600000 32) (ew : FVec F S1600000 .f32) : FVec F S1600000 .f32 :=
  mulf (mulf (Host.gather gather_S100000_S1600000x1_S1600000_n_0_n_n_0_1_1 d
        (broadcastInDim S1600000x1 ![0] bcast_S1600000_S1600000x1_0 (wrapK row))) ew)
    (Host.gather gather_S100000_S1600000x1_S1600000_n_0_n_n_0_1_1 d
      (broadcastInDim S1600000x1 ![0] bcast_S1600000_S1600000x1_0 (wrapK col)))

/-- One round of aggregation: the scaled rows summed at their targets, plus every node's own row scaled by d * d. -/
def aggK (d : FVec F S100000 .f32) (row col : IVec S1600000 32) (nrm : FVec F S1600000 .f32) (h : FVec F S100000x64 .f32) :
    FVec F S100000x64 .f32 :=
  addf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 col)
      (mulf (broadcastInDim S1600000x64 ![0, 1] bcast_S1600000x1_S1600000x64_0_1
              (broadcastInDim S1600000x1 ![0] bcast_S1600000_S1600000x1_0 nrm))
        (Host.gather gather_S100000x64_S1600000x1_S1600000x64_1_0_n_n_0_1_164 h
          (broadcastInDim S1600000x1 ![0] bcast_S1600000_S1600000x1_0 (wrapK row)))))
    (mulf (broadcastInDim S100000x64 ![0, 1] bcast_S100000x1_S100000x64_0_1
            (broadcastInDim S100000x1 ![0] bcast_S100000_S100000x1_0 (mulf d d))) h)

/-- A bias vector as a one-row matrix. -/
def biasRowK (b : FVec F S64 .f32) : FVec F S1x64 .f32 := shapeCast _ b shapeCasts_S64_S1x64

end Cert.KernelIdeal.Terms

end
-- ==== Proof.KernelHost.lean ====
/-
  What the idealized kernel's buffers hold where its pipelined computations and its host stretches read them.

  The run is followed from the launch: three stretches of host operations compute the edges' sources and targets, d
  and the normalised edge weights from the edge list and the edge weights; the first pipelined computation writes the
  first dense product; a host stretch aggregates it and lays the first bias as a row; the second pipelined computation
  writes the second dense product; a host stretch aggregates that and lays the second bias as a row; the third
  pipelined computation writes the result.  A buffer no later operation writes keeps its contents across every
  later boundary, so each read below walks back to the stretch that wrote the buffer, or to the launch.
-/
import proofs.«137460_j21784074125836_1_alg».proof.Proof.KernelTerms
import proofs.«137460_j21784074125836_1_alg».proof.Proof.Gen.KernelIdeal.Frame
import Idealize.ShloMosaic.Lib.StableHlo.Run

set_option maxRecDepth 16384

noncomputable section

namespace Cert.KernelIdeal.Host

open Cert.KernelIdeal Cert.KernelIdeal.Gen Cert.KernelIdeal.Terms
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-! ## At the first pipelined computation's entry: everything is a term of the launch arrays -/

/-- the edges' sources, at the first entry. -/
theorem e3_main_v1 : W3 m ρ c (Proc.devRef .tc main_v1) = rowK (m ((c : Thread nD τ).loc main_arg1)) := by
  show StableHlo.after hostOps0_2 (StableHlo.after hostOps0_1 (StableHlo.after hostOps0 (W0 m ρ c))) (Proc.devRef .tc main_v1) = _
  after_results_simp <;> rfl

/-- the edges' targets, at the first entry. -/
theorem e3_main_v3 : W3 m ρ c (Proc.devRef .tc main_v3) = colK (m ((c : Thread nD τ).loc main_arg1)) := by
  show StableHlo.after hostOps0_2 (StableHlo.after hostOps0_1 (StableHlo.after hostOps0 (W0 m ρ c))) (Proc.devRef .tc main_v3) = _
  after_results_simp <;> rfl

/-- d, at the first entry. -/
theorem e3_main_v14 : W3 m ρ c (Proc.devRef .tc main_v14) = dinvK (m ((c : Thread nD τ).loc main_arg1)) (m ((c : Thread nD τ).loc main_arg2)) := by
  show StableHlo.after hostOps0_2 (StableHlo.after hostOps0_1 (StableHlo.after hostOps0 (W0 m ρ c))) (Proc.devRef .tc main_v14) = _
  after_results_simp <;> rfl

/-- the normalised edge weights, at the first entry. -/
theorem e3_main_v30 : W3 m ρ c (Proc.devRef .tc main_v30) = normK (dinvK (m ((c : Thread nD τ).loc main_arg1)) (m ((c : Thread nD τ).loc main_arg2))) (rowK (m ((c : Thread nD τ).loc main_arg1))) (colK (m ((c : Thread nD τ).loc main_arg1))) (m ((c : Thread nD τ).loc main_arg2)) := by
  show StableHlo.after hostOps0_2 (StableHlo.after hostOps0_1 (StableHlo.after hostOps0 (W0 m ρ c))) (Proc.devRef .tc main_v30) = _
  after_results_simp <;> rfl

theorem e3_main_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem e3_main_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem e3_main_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem e3_main_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

theorem e3_main_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl

/-! ## Across the first pipelined computation: only its output array changes -/

theorem e4_main_v1 : W4 m ρ c (Proc.devRef .tc main_v1) = rowK (m ((c : Thread nD τ).loc main_arg1)) :=
  (W4_of_ne m ρ c main_v1 (by decide)).trans (e3_main_v1 m ρ c)

theorem e4_main_v3 : W4 m ρ c (Proc.devRef .tc main_v3) = colK (m ((c : Thread nD τ).loc main_arg1)) :=
  (W4_of_ne m ρ c main_v3 (by decide)).trans (e3_main_v3 m ρ c)

theorem e4_main_v14 : W4 m ρ c (Proc.devRef .tc main_v14) = dinvK (m ((c : Thread nD τ).loc main_arg1)) (m ((c : Thread nD τ).loc main_arg2)) :=
  (W4_of_ne m ρ c main_v14 (by decide)).trans (e3_main_v14 m ρ c)

theorem e4_main_v30 : W4 m ρ c (Proc.devRef .tc main_v30) = normK (dinvK (m ((c : Thread nD τ).loc main_arg1)) (m ((c : Thread nD τ).loc main_arg2))) (rowK (m ((c : Thread nD τ).loc main_arg1))) (colK (m ((c : Thread nD τ).loc main_arg1))) (m ((c : Thread nD τ).loc main_arg2)) :=
  (W4_of_ne m ρ c main_v30 (by decide)).trans (e3_main_v30 m ρ c)

theorem e4_main_arg4 : W4 m ρ c (Proc.devRef .tc main_arg4) = m ((c : Thread nD τ).loc main_arg4) :=
  (W4_of_ne m ρ c main_arg4 (by decide)).trans (e3_main_arg4 m ρ c)

theorem e4_main_arg5 : W4 m ρ c (Proc.devRef .tc main_arg5) = m ((c : Thread nD τ).loc main_arg5) :=
  (W4_of_ne m ρ c main_arg5 (by decide)).trans (e3_main_arg5 m ρ c)

theorem e4_main_arg6 : W4 m ρ c (Proc.devRef .tc main_arg6) = m ((c : Thread nD τ).loc main_arg6) :=
  (W4_of_ne m ρ c main_arg6 (by decide)).trans (e3_main_arg6 m ρ c)

/-- The first dense product's array is what the first pipelined computation's write-backs leave. -/
theorem e4_main_v31 : W4 m ρ c (Proc.devRef .tc main_v31) = (dat0 (V3 m ρ) c).arrAt 2 cfg0.N := W4_arr m ρ c 2

/-! ## At the second pipelined computation's entry -/

/-- The first aggregate, of whatever the first dense product's array holds. -/
theorem e5_main_v49 : W5 m ρ c (Proc.devRef .tc main_v49)
    = aggK (dinvK (m ((c : Thread nD τ).loc main_arg1)) (m ((c : Thread nD τ).loc main_arg2))) (rowK (m ((c : Thread nD τ).loc main_arg1))) (colK (m ((c : Thread nD τ).loc main_arg1))) (normK (dinvK (m ((c : Thread nD τ).loc main_arg1)) (m ((c : Thread nD τ).loc main_arg2))) (rowK (m ((c : Thread nD τ).loc main_arg1))) (colK (m ((c : Thread nD τ).loc main_arg1))) (m ((c : Thread nD τ).loc main_arg2))) (W4 m ρ c (Proc.devRef .tc main_v31)) := by
  rw [← e4_main_v30 m ρ c, ← e4_main_v14 m ρ c, ← e4_main_v1 m ρ c, ← e4_main_v3 m ρ c]
  show StableHlo.after hostOps1 (W4 m ρ c) (Proc.devRef .tc main_v49) = _
  after_results_simp <;> rfl

/-- The first bias, as a row. -/
theorem e5_main_v50 : W5 m ρ c (Proc.devRef .tc main_v50) = biasRowK (m ((c : Thread nD τ).loc main_arg4)) := by
  rw [← e4_main_arg4 m ρ c]
  show StableHlo.after hostOps1 (W4 m ρ c) (Proc.devRef .tc main_v50) = _
  after_results_simp <;> rfl

theorem e5_main_v1 : W5 m ρ c (Proc.devRef .tc main_v1) = rowK (m ((c : Thread nD τ).loc main_arg1)) :=
  (show StableHlo.after hostOps1 (W4 m ρ c) (Proc.devRef .tc main_v1) = W4 m ρ c (Proc.devRef .tc main_v1) by after_results_simp <;> rfl).trans (e4_main_v1 m ρ c)

theorem e5_main_v3 : W5 m ρ c (Proc.devRef .tc main_v3) = colK (m ((c : Thread nD τ).loc main_arg1)) :=
  (show StableHlo.after hostOps1 (W4 m ρ c) (Proc.devRef .tc main_v3) = W4 m ρ c (Proc.devRef .tc main_v3) by after_results_simp <;> rfl).trans (e4_main_v3 m ρ c)

theorem e5_main_v14 : W5 m ρ c (Proc.devRef .tc main_v14) = dinvK (m ((c : Thread nD τ).loc main_arg1)) (m ((c : Thread nD τ).loc main_arg2)) :=
  (show StableHlo.after hostOps1 (W4 m ρ c) (Proc.devRef .tc main_v14) = W4 m ρ c (Proc.devRef .tc main_v14) by after_results_simp <;> rfl).trans (e4_main_v14 m ρ c)

theorem e5_main_v30 : W5 m ρ c (Proc.devRef .tc main_v30) = normK (dinvK (m ((c : Thread nD τ).loc main_arg1)) (m ((c : Thread nD τ).loc main_arg2))) (rowK (m ((c : Thread nD τ).loc main_arg1))) (colK (m ((c : Thread nD τ).loc main_arg1))) (m ((c : Thread nD τ).loc main_arg2)) :=
  (show StableHlo.after hostOps1 (W4 m ρ c) (Proc.devRef .tc main_v30) = W4 m ρ c (Proc.devRef .tc main_v30) by after_results_simp <;> rfl).trans (e4_main_v30 m ρ c)

theorem e5_main_arg5 : W5 m ρ c (Proc.devRef .tc main_arg5) = m ((c : Thread nD τ).loc main_arg5) :=
  (show StableHlo.after hostOps1 (W4 m ρ c) (Proc.devRef .tc main_arg5) = W4 m ρ c (Proc.devRef .tc main_arg5) by after_results_simp <;> rfl).trans (e4_main_arg5 m ρ c)

theorem e5_main_arg6 : W5 m ρ c (Proc.devRef .tc main_arg6) = m ((c : Thread nD τ).loc main_arg6) :=
  (show StableHlo.after hostOps1 (W4 m ρ c) (Proc.devRef .tc main_arg6) = W4 m ρ c (Proc.devRef .tc main_arg6) by after_results_simp <;> rfl).trans (e4_main_arg6 m ρ c)

/-! ## Across the second pipelined computation -/

theorem e6_main_v1 : W6 m ρ c (Proc.devRef .tc main_v1) = rowK (m ((c : Thread nD τ).loc main_arg1)) :=
  (W6_of_ne m ρ c main_v1 (by decide)).trans (e5_main_v1 m ρ c)

theorem e6_main_v3 : W6 m ρ c (Proc.devRef .tc main_v3) = colK (m ((c : Thread nD τ).loc main_arg1)) :=
  (W6_of_ne m ρ c main_v3 (by decide)).trans (e5_main_v3 m ρ c)

theorem e6_main_v14 : W6 m ρ c (Proc.devRef .tc main_v14) = dinvK (m ((c : Thread nD τ).loc main_arg1)) (m ((c : Thread nD τ).loc main_arg2)) :=
  (W6_of_ne m ρ c main_v14 (by decide)).trans (e5_main_v14 m ρ c)

theorem e6_main_v30 : W6 m ρ c (Proc.devRef .tc main_v30) = normK (dinvK (m ((c : Thread nD τ).loc main_arg1)) (m ((c : Thread nD τ).loc main_arg2))) (rowK (m ((c : Thread nD τ).loc main_arg1))) (colK (m ((c : Thread nD τ).loc main_arg1))) (m ((c : Thread nD τ).loc main_arg2)) :=
  (W6_of_ne m ρ c main_v30 (by decide)).trans (e5_main_v30 m ρ c)

theorem e6_main_arg6 : W6 m ρ c (Proc.devRef .tc main_arg6) = m ((c : Thread nD τ).loc main_arg6) :=
  (W6_of_ne m ρ c main_arg6 (by decide)).trans (e5_main_arg6 m ρ c)

/-- The second dense product's array is what the second pipelined computation's write-backs leave. -/
theorem e6_main_v51 : W6 m ρ c (Proc.devRef .tc main_v51) = (dat1 (V5 m ρ) c).arrAt 3 cfg1.N := W6_arr m ρ c 3

/-! ## At the third pipelined computation's entry, and after it -/

/-- The second aggregate, of whatever the second dense product's array holds. -/
theorem e7_main_v69 : W7 m ρ c (Proc.devRef .tc main_v69)
    = aggK (dinvK (m ((c : Thread nD τ).loc main_arg1)) (m ((c : Thread nD τ).loc main_arg2))) (rowK (m ((c : Thread nD τ).loc main_arg1))) (colK (m ((c : Thread nD τ).loc main_arg1))) (normK (dinvK (m ((c : Thread nD τ).loc main_arg1)) (m ((c : Thread nD τ).loc main_arg2))) (rowK (m ((c : Thread nD τ).loc main_arg1))) (colK (m ((c : Thread nD τ).loc main_arg1))) (m ((c : Thread nD τ).loc main_arg2))) (W6 m ρ c (Proc.devRef .tc main_v51)) := by
  rw [← e6_main_v30 m ρ c, ← e6_main_v14 m ρ c, ← e6_main_v1 m ρ c, ← e6_main_v3 m ρ c]
  show StableHlo.after hostOps2 (W6 m ρ c) (Proc.devRef .tc main_v69) = _
  after_results_simp <;> rfl

/-- The second bias, as a row. -/
theorem e7_main_v70 : W7 m ρ c (Proc.devRef .tc main_v70) = biasRowK (m ((c : Thread nD τ).loc main_arg6)) := by
  rw [← e6_main_arg6 m ρ c]
  show StableHlo.after hostOps2 (W6 m ρ c) (Proc.devRef .tc main_v70) = _
  after_results_simp <;> rfl

/-- The result array is what the third pipelined computation's write-backs leave. -/
theorem e8_main_v71 : W8 m ρ c (Proc.devRef .tc main_v71) = (dat2 (V7 m ρ) c).arrAt 2 cfg2.N := W8_arr m ρ c 2

end Cert.KernelIdeal.Host

end
-- ==== Proof.GcnSpec.lean ====
/-
  The pieces of a two-layer graph convolution on 100000 nodes with 64 features, as functions of indices on the
  extended reals.

  A layer takes node features h, multiplies them by a 64 x 64 weight matrix, mixes the rows along the edges of the
  graph, adds a bias to every row and keeps the positive part.  Two of these steps touch one row at a time and are
  stated here: the dense product  (x w)(r, c) = sum_k x(r, k) * w(k, c)  and the step  max(a(r, c) + b(c), 0)  with
  the bias held as a one-row matrix.  An entry (r, c) of either depends on row r of the node features only, which is
  why a computation that walks the rows in blocks of 5000 produces the same array as one that takes all rows at once.
-/
import Idealize.ShloMosaic.PureOps.Ideal
import Idealize.ShloMosaic.Lib.ValueIdx

noncomputable section

open scoped BigOperators

namespace Cert.GcnSpec

open Idealize.ShloMosaic Idealize.ShloMosaic.ValueIdx

/-- Node features: one row of 64 numbers per node. -/
abbrev SN : Shape := ⟨2, ![100000, 64]⟩
/-- A weight matrix. -/
abbrev SW : Shape := ⟨2, ![64, 64]⟩
/-- A bias, as a matrix of one row. -/
abbrev SB : Shape := ⟨2, ![1, 64]⟩

/-- The dense product: entry (r, c) is the sum over k of x(r, k) * w(k, c). -/
def mm (x : SN.Idx → EReal) (w : SW.Idx → EReal) : SN.Idx → EReal :=
  fun j => ∑ k : Fin 64, x (ix2 (j 0 : Fin 100000) k) * w (ix2 k (j 1 : Fin 64))

/-- The bias row added to every row, then the positive part: entry (r, c) is max(a(r, c) + b(0, c), 0). -/
def biasRelu (a : SN.Idx → EReal) (b : SB.Idx → EReal) : SN.Idx → EReal :=
  fun j => max (a j + b (ix2 (0 : Fin 1) (j 1 : Fin 64))) 0

theorem mm_apply (x : SN.Idx → EReal) (w : SW.Idx → EReal) (p : Fin 100000) (q : Fin 64) :
    mm x w (ix2 p q) = ∑ k : Fin 64, x (ix2 p k) * w (ix2 k q) := rfl

theorem biasRelu_apply (a : SN.Idx → EReal) (b : SB.Idx → EReal) (p : Fin 100000) (q : Fin 64) :
    biasRelu a b (ix2 p q) = max (a (ix2 p q) + b (ix2 (0 : Fin 1) q)) 0 := rfl

end Cert.GcnSpec

end
-- ==== Proof.KernelBlocks.lean ====
/-
  The three row-block computations of a two-layer graph convolution, read as whole arrays.

  Each of the three computations walks the 100000 rows of a [100000, 64] array in 20 blocks of 5000 rows: grid
  point t takes rows 5000 t .. 5000 t + 4999 of its row operand, the whole weight matrix and the whole bias row,
  and writes rows 5000 t .. 5000 t + 4999 of its result.  An entry (r, c) of a dense product, or of a bias-and-
  positive-part step, depends on row r of the row operand only; so what point t writes is block t of ONE function
  of the whole operands, and since the 20 blocks cover every row (row r lies in block r / 5000) the array the
  computation leaves IS that function: the dense product  x w,  the dense product  max(a + b, 0) w,  and
  max(a + b, 0).
-/
import proofs.«137460_j21784074125836_1_alg».proof.Proof.Gen.KernelIdeal.Frame
import proofs.«137460_j21784074125836_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Blocks

open Cert.KernelIdeal Cert.KernelIdeal.Gen Cert.GcnSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The dense product of a block of rows -/

/-- The zero offsets of a whole-block access, however spelt. -/
theorem zero_offsets : (![0, 0] : Fin 2 → Nat) = fun _ => 0 := funext fun a => by fin_cases a <;> rfl

/-- The left operand's index at output entry (p, q) and contraction position k is (p, k). -/
theorem dot_lhs (p : Fin 5000) (q : Fin 64) (k : Fin 64) :
    dot_S5000x64_S64x64_S5000x64_1_0_0_1_n_n.lhsIdx (ix2 p q)
      ((ValueIdx.contrEquiv1 dot_S5000x64_S64x64_S5000x64_1_0_0_1_n_n 64 rfl rfl).symm k) = ix2 p k := by
  have hk := ValueIdx.contrEquiv1_symm_val dot_S5000x64_S64x64_S5000x64_1_0_0_1_n_n 64 rfl rfl k
  funext a; apply Fin.ext
  match a with
  | ⟨0, _⟩ =>
    show (dot_S5000x64_S64x64_S5000x64_1_0_0_1_n_n.lhsIdx (ix2 p q) _ 0).val = p.val
    unfold DotDims.lhsIdx
    rw [dif_neg (show ¬(0 : Fin S5000x64.rank) ∈ dot_S5000x64_S64x64_S5000x64_1_0_0_1_n_n.lhsBatch by decide),
      dif_pos (show (0 : Fin S5000x64.rank) ∈ dot_S5000x64_S64x64_S5000x64_1_0_0_1_n_n.lhsNonContracting by decide)]
    rfl
  | ⟨1, _⟩ =>
    exact (dot_S5000x64_S64x64_S5000x64_1_0_0_1_n_n.lhsIdx_val_of_single rfl (ix2 p q) _).trans hk

/-- The right operand's index at output entry (p, q) and contraction position k is (k, q). -/
theorem dot_rhs (p : Fin 5000) (q : Fin 64) (k : Fin 64) :
    dot_S5000x64_S64x64_S5000x64_1_0_0_1_n_n.rhsIdx (ix2 p q)
      ((ValueIdx.contrEquiv1 dot_S5000x64_S64x64_S5000x64_1_0_0_1_n_n 64 rfl rfl).symm k) = ix2 k q := by
  have hk := ValueIdx.contrEquiv1_symm_val dot_S5000x64_S64x64_S5000x64_1_0_0_1_n_n 64 rfl rfl k
  funext a; apply Fin.ext
  match a with
  | ⟨0, _⟩ =>
    exact (dot_S5000x64_S64x64_S5000x64_1_0_0_1_n_n.rhsIdx_val_of_single rfl (ix2 p q) _).trans hk
  | ⟨1, _⟩ =>
    show (dot_S5000x64_S64x64_S5000x64_1_0_0_1_n_n.rhsIdx (ix2 p q) _ 1).val = q.val
    unfold DotDims.rhsIdx
    rw [dif_neg (show ¬(1 : Fin S64x64.rank) ∈ dot_S5000x64_S64x64_S5000x64_1_0_0_1_n_n.rhsBatch by decide),
      dif_pos (show (1 : Fin S64x64.rank) ∈ dot_S5000x64_S64x64_S5000x64_1_0_0_1_n_n.rhsNonContracting by decide)]
    rfl

/-- A product of a block of rows by a 64 x 64 matrix into zeros, entry by entry: the sum over k. -/
theorem matmul_block_apply (y : FVec Ideal S5000x64 .bf16) (z : FVec Ideal S64x64 .bf16) (p : Fin 5000) (q : Fin 64) :
    matmul dot_S5000x64_S64x64_S5000x64_1_0_0_1_n_n none y z (constant S5000x64 .f32 0x00000000#32) (ix2 p q)
      = ∑ k : Fin 64, y (ix2 p k) * z (ix2 k q) := by
  simp only [matmul]
  rw [Ideal.matmul_constant_zero_apply,
    ← Equiv.sum_comp (ValueIdx.contrEquiv1 dot_S5000x64_S64x64_S5000x64_1_0_0_1_n_n 64 rfl rfl).symm]
  refine Finset.sum_congr rfl fun k _ => ?_
  rw [dot_lhs, dot_rhs]

/-- The payload of the first computation at entry (p, q): rounding to bf16 changes nothing on the extended reals,
    and the product into zeros is the sum over k. -/
theorem pay0_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact matmul_block_apply _ _ p q

/-! ## The bias row and the positive part of a block of rows -/

/-- The payload of the third computation at entry (p, q): the block's entry plus the bias row's entry q, or zero
    if that is negative. -/
theorem pay2_apply (x0 : Vec Ideal S5000x64 .f32) (x1 : Vec Ideal S1x64 .f32) (p : Fin 5000) (q : Fin 64) :
    k2_pay1 (F := Ideal) x0 x1 (ix2 p q) = max (x0 (ix2 p q) + x1 (ix2 (0 : Fin 1) q)) 0 := by
  unfold k2_pay1
  rw [maximumf_apply, addf_apply, broadcast_apply, shapeCast_self, shapeCast_self, broadcastTo_1b_ab_apply]
  show max _ (Ideal.ofBits .f32 0x00000000#32) = _
  rw [Ideal.ofBits_zero_f32]

/-- The payload of the second computation is the first's on the third's: the product, by the weights, of the block
    with the bias added and the positive part taken. -/
theorem pay1_apply (x0 : Vec Ideal S5000x64 .f32) (x1 : Vec Ideal S1x64 .f32) (x2 : Vec Ideal S64x64 .f32)
    (p : Fin 5000) (q : Fin 64) :
    k1_pay1 (F := Ideal) x0 x1 x2 (ix2 p q)
      = ∑ k : Fin 64, max (x0 (ix2 p k) + x1 (ix2 (0 : Fin 1) k)) 0 * x2 (ix2 k q) := by
  show k0_pay1 (F := Ideal) (k2_pay1 (F := Ideal) x0 x1) x2 (ix2 p q) = _
  rw [pay0_apply]
  refine Finset.sum_congr rfl fun k _ => ?_
  rw [pay2_apply]

/-! ## First computation: x w -/

/-- The block indices over the grid: point t takes row block t of the row operand and of the result, and the one
    block of the weights. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of the payload on row block b of X and the whole of W is entry (5000 b + p, q) of the dense
    product X W: the entry reads row 5000 b + p of X only. -/
theorem block0_eq (X : SN.Idx → EReal) (W : SW.Idx → EReal) (x0 : Vec Ideal S5000x64 .f32) (x1 : Vec Ideal S64x64 .f32)
    (b : Nat) (hb : b < 20)
    (h0 : ∀ (p : Fin 5000) (k : Fin 64), x0 (ix2 p k) = X (ix2 (⟨b * 5000 + p.val, by omega⟩ : Fin 100000) k))
    (h1 : ∀ (k q : Fin 64), x1 (ix2 k q) = W (ix2 k q)) (p : Fin 5000) (q : Fin 64) :
    k0_pay1 (F := Ideal) x0 x1 (ix2 p q) = mm X W (ix2 (⟨b * 5000 + p.val, by omega⟩ : Fin 100000) q) := by
  rw [pay0_apply, mm_apply]
  refine Finset.sum_congr rfl fun k _ => ?_
  rw [h0, h1]

/-- A grid point of the first computation is one of 20. -/
theorem point_lt0 (t : Fin cfg0.N) : t.val < 20 := lt_of_lt_of_eq t.isLt N_0

/-- What point t writes back is block t of the dense product of the operands as the computation finds them. -/
theorem flushed0_eq (c : Dev nD) (t : Fin cfg0.N) :
    (dat0 V c).flushed 2 t = ((cfg0.win 2).blk t).view.read (Elt Ideal) (mm (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S64x64) zero_offsets]
  obtain ⟨e0, e1, e2, e3, e4, e5⟩ := index_facts0 t
  have ht := point_lt0 t
  refine funext fun (j : S5000x64.Idx) => ?_
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = mm (V c main_arg0) (V c main_arg3) (((cfg0.win 2).blk t).view.emb (ix2 p q))
  have hemb : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  rw [hemb]
  refine block0_eq (V c main_arg0) (V c main_arg3) _ _ t.val ht ?_ ?_ p q
  · intro p k
    show V c main_arg0 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · intro k q
    show V c main_arg3 (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega

/-- An index of the result array is in point t's block iff each coordinate is in the block's range on its axis. -/
theorem mem_block0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v31).slice (win0_2.rect t)).set ↔ _
  rw [View.set_slice_whole, Rect.mem_set_unit]
  exact Iff.rfl

/-- The 20 row blocks cover the result: row r is in block r / 5000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨e0, e1, e2, e3, e4, e5⟩ := index_facts0 t
  refine ⟨t, flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- THE FIRST COMPUTATION leaves the dense product of its row operand by its weights. -/
theorem arr0 (c : Dev nD) : (dat0 (F := Ideal) V c).arrAt 2 cfg0.N = mm (V c main_arg0) (V c main_arg3) :=
  (dat0 V c).arrAt_eq_of_cover 2 (mm (V c main_arg0) (V c main_arg3)) (fun t _ => flushed0_eq V c t) cover0

/-! ## Second computation: max(a + b, 0) w -/

/-- The block indices over the grid: point t takes row block t of the row operand and of the result, and the one
    block of the bias row and of the weights. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of the payload on row block b of A and the whole of B and W is entry (5000 b + p, q) of the dense
    product max(A + B, 0) W. -/
theorem block1_eq (A : SN.Idx → EReal) (B : SB.Idx → EReal) (W : SW.Idx → EReal)
    (x0 : Vec Ideal S5000x64 .f32) (x1 : Vec Ideal S1x64 .f32) (x2 : Vec Ideal S64x64 .f32) (b : Nat) (hb : b < 20)
    (h0 : ∀ (p : Fin 5000) (k : Fin 64), x0 (ix2 p k) = A (ix2 (⟨b * 5000 + p.val, by omega⟩ : Fin 100000) k))
    (h1 : ∀ k : Fin 64, x1 (ix2 (0 : Fin 1) k) = B (ix2 (0 : Fin 1) k))
    (h2 : ∀ (k q : Fin 64), x2 (ix2 k q) = W (ix2 k q)) (p : Fin 5000) (q : Fin 64) :
    k1_pay1 (F := Ideal) x0 x1 x2 (ix2 p q)
      = mm (biasRelu A B) W (ix2 (⟨b * 5000 + p.val, by omega⟩ : Fin 100000) q) := by
  rw [pay1_apply, mm_apply]
  refine Finset.sum_congr rfl fun k _ => ?_
  rw [biasRelu_apply, h0, h1, h2]

/-- A grid point of the second computation is one of 20. -/
theorem point_lt1 (t : Fin cfg1.N) : t.val < 20 := lt_of_lt_of_eq t.isLt N_1

/-- What point t writes back is block t of max(a + b, 0) w of the operands as the computation finds them. -/
theorem flushed1_eq (c : Dev nD) (t : Fin cfg1.N) :
    (dat1 V c).flushed 3 t = ((cfg1.win 3).blk t).view.read (Elt Ideal)
      (mm (biasRelu (V c main_v49) (V c main_v50)) (V c main_arg5)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S1x64) zero_offsets,
    View.ld_unit_zero (S := S64x64) zero_offsets]
  obtain ⟨e0, e1, e2, e3, e4, e5, e6, e7⟩ := index_facts1 t
  have ht := point_lt1 t
  refine funext fun (j : S5000x64.Idx) => ?_
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
    = mm (biasRelu (V c main_v49) (V c main_v50)) (V c main_arg5) (((cfg1.win 3).blk t).view.emb (ix2 p q))
  have hemb : ((cfg1.win 3).blk t).view.emb (ix2 p q) = ix2 (⟨t.val * 5000 + p.val, by omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  rw [hemb]
  refine block1_eq (V c main_v49) (V c main_v50) (V c main_arg5) _ _ _ t.val ht ?_ ?_ ?_ p q
  · intro p k
    show V c main_v49 (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · intro k
    show V c main_v50 (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · intro k q
    show V c main_arg5 (((cfg1.win 2).blk t).view.emb (ix2 k q)) = _
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega

/-- An index of the result array is in point t's block iff each coordinate is in the block's range on its axis. -/
theorem mem_block1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v51).slice (win1_3.rect t)).set ↔ _
  rw [View.set_slice_whole, Rect.mem_set_unit]
  exact Iff.rfl

/-- The 20 row blocks cover the result: row r is in block r / 5000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨e0, e1, e2, e3, e4, e5, e6, e7⟩ := index_facts1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- THE SECOND COMPUTATION leaves the dense product, by its weights, of its row operand with the bias row added and
    the positive part taken. -/
theorem arr1 (c : Dev nD) :
    (dat1 (F := Ideal) V c).arrAt 3 cfg1.N = mm (biasRelu (V c main_v49) (V c main_v50)) (V c main_arg5) :=
  (dat1 V c).arrAt_eq_of_cover 3 (mm (biasRelu (V c main_v49) (V c main_v50)) (V c main_arg5))
    (fun t _ => flushed1_eq V c t) cover1

/-! ## Third computation: max(a + b, 0) -/

/-- The block indices over the grid: point t takes row block t of the row operand and of the result, and the one
    block of the bias row. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, q) of the payload on row block b of A and the whole of B is entry (5000 b + p, q) of max(A + B, 0). -/
theorem block2_eq (A : SN.Idx → EReal) (B : SB.Idx → EReal) (x0 : Vec Ideal S5000x64 .f32) (x1 : Vec Ideal S1x64 .f32)
    (b : Nat) (hb : b < 20)
    (h0 : ∀ (p : Fin 5000) (q : Fin 64), x0 (ix2 p q) = A (ix2 (⟨b * 5000 + p.val, by omega⟩ : Fin 100000) q))
    (h1 : ∀ q : Fin 64, x1 (ix2 (0 : Fin 1) q) = B (ix2 (0 : Fin 1) q)) (p : Fin 5000) (q : Fin 64) :
    k2_pay1 (F := Ideal) x0 x1 (ix2 p q) = biasRelu A B (ix2 (⟨b * 5000 + p.val, by omega⟩ : Fin 100000) q) := by
  rw [pay2_apply, biasRelu_apply, h0, h1]

/-- A grid point of the third computation is one of 20. -/
theorem point_lt2 (t : Fin cfg2.N) : t.val < 20 := lt_of_lt_of_eq t.isLt N_2

/-- What point t writes back is block t of max(a + b, 0) of the operands as the computation finds them. -/
theorem flushed2_eq (c : Dev nD) (t : Fin cfg2.N) :
    (dat2 V c).flushed 2 t = ((cfg2.win 2).blk t).view.read (Elt Ideal) (biasRelu (V c main_v69) (V c main_v70)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S1x64) zero_offsets]
  obtain ⟨e0, e1, e2, e3, e4, e5⟩ := index_facts2 t
  have ht := point_lt2 t
  refine funext fun (j : S5000x64.Idx) => ?_
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q)
    = biasRelu (V c main_v69) (V c main_v70) (((cfg2.win 2).blk t).view.emb (ix2 p q))
  have hemb : ((cfg2.win 2).blk t).view.emb (ix2 p q) = ix2 (⟨t.val * 5000 + p.val, by omega⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  rw [hemb]
  refine block2_eq (V c main_v69) (V c main_v70) _ _ t.val ht ?_ ?_ p q
  · intro p q
    show V c main_v69 (((cfg2.win 0).blk t).view.emb (ix2 p q)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * q.val = q.val; omega
  · intro q
    show V c main_v70 (((cfg2.win 1).blk t).view.emb (ix2 (0 : Fin 1) q)) = _
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * q.val = q.val; omega

/-- An index of the result array is in point t's block iff each coordinate is in the block's range on its axis. -/
theorem mem_block2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v71).slice (win2_2.rect t)).set ↔ _
  rw [View.set_slice_whole, Rect.mem_set_unit]
  exact Iff.rfl

/-- The 20 row blocks cover the result: row r is in block r / 5000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨e0, e1, e2, e3, e4, e5⟩ := index_facts2 t
  refine ⟨t, flush2_2 t, ?_⟩
  rw [mem_block2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- THE THIRD COMPUTATION leaves its row operand with the bias row added and the positive part taken. -/
theorem arr2 (c : Dev nD) : (dat2 (F := Ideal) V c).arrAt 2 cfg2.N = biasRelu (V c main_v69) (V c main_v70) :=
  (dat2 V c).arrAt_eq_of_cover 2 (biasRelu (V c main_v69) (V c main_v70)) (fun t _ => flushed2_eq V c t) cover2

end Cert.KernelIdeal.Blocks

end
-- ==== Proof.LibRowOps.lean ====
/-
  Row-indexed scatter and gather of a matrix, read at an index.

  An accumulating scatter of the rows of an `[e, f]` matrix of updates into an `[n, f]` operand, at one row id per
  update row (the index array `[e, 1]`, each id read as a signed integer, an id outside `[0, n)` dropping its row), is,
  at entry `(r, c)`, the operand there plus the sum over the update rows `k` whose id is `r` of update `(k, c)`.
  A gather of whole rows of an `[n, f]` operand (or of entries of a flat `[n]` operand) at one row id per result row
  reads, at result row `k`, the operand's row `clampRow (id k)`: the id read as a signed integer and clamped into
  `[0, n - 1]`. All three are generic in the extents.
-/
import Idealize.ShloMosaic.PureOps.Ideal
import Idealize.ShloMosaic.Lib.ValueIdx
import Idealize.ShloMosaic.Lib.Pipeline.Value

noncomputable section

namespace Idealize.ShloMosaic.RowOps

open Idealize.ShloMosaic Idealize.ShloMosaic.ValueIdx
open scoped BigOperators

/-- A row id read as a signed integer and clamped into `[0, n - 1]`. -/
def clampRow (n : Nat) (hn : 0 < n) {w : Nat} (x : BitVec w) : Fin n := ⟨min x.toInt.toNat (n - 1), by omega⟩

/-! ## The row scatter -/

/-- The dimension numbers of a scatter of update rows `[e, f]` into an operand `[n, f]` at indices `[e, 1]`: the
    feature axis is the window axis, the operand's row axis inserted and indexed by the index vector's one component. -/
abbrev rowsDims (n e f : Nat) (wf : ScatterDims.WF ⟨2, ![n, f]⟩ ⟨2, ![e, 1]⟩ ⟨2, ![e, f]⟩ [1] [0] [0] 1) :
    ScatterDims ⟨2, ![n, f]⟩ ⟨2, ![e, 1]⟩ ⟨2, ![e, f]⟩ where
  updateWindowDims := [1]
  insertedWindowDims := [0]
  scatterDimsToOperandDims := [0]
  indexVectorDim := 1
  wf := wf

section Rows
variable {n e f w : Nat} (wf : ScatterDims.WF ⟨2, ![n, f]⟩ ⟨2, ![e, 1]⟩ ⟨2, ![e, f]⟩ [1] [0] [0] 1)

/-- On the row axis update `j` starts at the id of its row; -/
theorem rows_start0 (j : (⟨2, ![e, f]⟩ : Shape).Idx) (idx : IVec ⟨2, ![e, 1]⟩ w) :
    (rowsDims n e f wf).start j idx 0 = (idx (ix2 (j 0) 0)).toInt := by
  unfold ScatterDims.start
  rw [dif_pos (show (0 : Fin 2) ∈ (rowsDims n e f wf).scatterDimsToOperandDims from List.mem_singleton.mpr rfl)]
  have hsi : (rowsDims n e f wf).siIdx j ⟨List.idxOf (0 : Fin 2) (rowsDims n e f wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the feature axis at `0`. -/
theorem rows_start1 (j : (⟨2, ![e, f]⟩ : Shape).Idx) (idx : IVec ⟨2, ![e, 1]⟩ w) :
    (rowsDims n e f wf).start j idx 1 = 0 := by
  unfold ScatterDims.start
  rw [dif_neg (show ¬ (1 : Fin 2) ∈ ([0] : List (Fin 2)) by decide)]

/-- The row axis is inserted: no window coordinate there; -/
theorem rows_window0 (j : (⟨2, ![e, f]⟩ : Shape).Idx) : (rowsDims n e f wf).window j 0 = 0 := by
  unfold ScatterDims.window
  rw [dif_neg (fun h => by
    have h2 := (List.mem_filter.mp h).2
    simp at h2)]

/-- the feature axis carries the update's column coordinate. -/
theorem rows_window1 (j : (⟨2, ![e, f]⟩ : Shape).Idx) : (rowsDims n e f wf).window j 1 = (j 1).val := by
  unfold ScatterDims.window
  rw [dif_pos (show (1 : Fin 2) ∈ (rowsDims n e f wf).sKept from
    List.mem_filter.mpr ⟨List.mem_finRange _, by simp⟩)]
  rfl

/-- Update `j` lands on position `i` exactly when its row's id is `i`'s row and its column is `i`'s column. -/
theorem rows_resultIdx (j : (⟨2, ![e, f]⟩ : Shape).Idx) (idx : IVec ⟨2, ![e, 1]⟩ w) (i : (⟨2, ![n, f]⟩ : Shape).Idx) :
    (rowsDims n e f wf).resultIdx? j idx = some i
      ↔ (idx (ix2 (j 0) 0)).toInt = ((i 0).val : ℤ) ∧ (j 1).val = (i 1).val := by
  unfold ScatterDims.resultIdx?
  split_ifs with h
  · rw [Option.some.injEq]
    constructor
    · intro hi
      have h0 := (h 0).1
      rw [← hi]
      constructor
      · show _ = (((rowsDims n e f wf).start j idx 0 + ((rowsDims n e f wf).window j 0 : ℕ)).toNat : ℤ)
        rw [Int.toNat_of_nonneg h0, rows_start0, rows_window0]; simp
      · show _ = ((rowsDims n e f wf).start j idx 1 + ((rowsDims n e f wf).window j 1 : ℕ)).toNat
        rw [rows_start1, rows_window1]; simp
    · rintro ⟨hi0, hi1⟩
      funext a
      refine Fin.ext ?_
      match a with
      | ⟨0, _⟩ =>
        show ((rowsDims n e f wf).start j idx 0 + ((rowsDims n e f wf).window j 0 : ℕ)).toNat = (i 0).val
        rw [rows_start0, rows_window0, hi0]; simp
      | ⟨1, _⟩ =>
        show ((rowsDims n e f wf).start j idx 1 + ((rowsDims n e f wf).window j 1 : ℕ)).toNat = (i 1).val
        rw [rows_start1, rows_window1, hi1]; simp
  · constructor
    · intro hi; exact absurd hi (by simp)
    · rintro ⟨hi0, hi1⟩
      exfalso; apply h
      intro a
      match a with
      | ⟨0, _⟩ =>
        show 0 ≤ (rowsDims n e f wf).start j idx 0 + ((rowsDims n e f wf).window j 0 : ℕ)
          ∧ (rowsDims n e f wf).start j idx 0 + ((rowsDims n e f wf).window j 0 : ℕ) < ((⟨2, ![n, f]⟩ : Shape).size 0 : ℕ)
        rw [rows_start0, rows_window0, hi0]
        have := (i 0).isLt
        constructor <;> omega
      | ⟨1, _⟩ =>
        show 0 ≤ (rowsDims n e f wf).start j idx 1 + ((rowsDims n e f wf).window j 1 : ℕ)
          ∧ (rowsDims n e f wf).start j idx 1 + ((rowsDims n e f wf).window j 1 : ℕ) < ((⟨2, ![n, f]⟩ : Shape).size 1 : ℕ)
        rw [rows_start1, rows_window1, hi1]
        have := (i 1).isLt
        constructor <;> omega

end Rows

/-- THE ROW SCATTER READ AT `(r, c)`: the operand there plus column `c` of the update rows whose id is `r`. -/
theorem rows_apply {n e f w : Nat} (wf : ScatterDims.WF ⟨2, ![n, f]⟩ ⟨2, ![e, 1]⟩ ⟨2, ![e, f]⟩ [1] [0] [0] 1)
    (x : (⟨2, ![n, f]⟩ : Shape).Idx → EReal) (idx : IVec ⟨2, ![e, 1]⟩ w)
    (upd : (⟨2, ![e, f]⟩ : Shape).Idx → EReal) (r : Fin n) (c : Fin f) :
    Ideal.hostScatterAdd (rowsDims n e f wf) x idx upd (ix2 r c)
      = x (ix2 r c) + ∑ k : Fin e, if (idx (ix2 k (0 : Fin 1))).toInt = (r.val : ℤ) then upd (ix2 k c) else 0 := by
  unfold Ideal.hostScatterAdd
  refine congrArg (x (ix2 r c) + ·) ?_
  rw [Finset.sum_filter, sum_idx2]
  refine Finset.sum_congr rfl fun k _ => ?_
  by_cases h : (idx (ix2 k (0 : Fin 1))).toInt = (r.val : ℤ)
  · rw [if_pos h, Finset.sum_eq_single c]
    · exact if_pos ((rows_resultIdx wf (ix2 k c) idx (ix2 r c)).mpr ⟨h, rfl⟩)
    · intro b _ hb
      exact if_neg fun hr => hb (Fin.ext ((rows_resultIdx wf (ix2 k b) idx (ix2 r c)).mp hr).2)
    · intro hc; exact absurd (Finset.mem_univ c) hc
  · rw [if_neg h]
    refine Finset.sum_eq_zero fun b _ => ?_
    exact if_neg fun hr => h ((rows_resultIdx wf (ix2 k b) idx (ix2 r c)).mp hr).1

/-! ## The gathers -/

/-- The dimension numbers of a gather of entries of a flat operand `[n]` at indices `[e, 1]` into `[e]`. -/
abbrev vecGatherDims (n e : Nat) (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- THE FLAT GATHER READ AT `k`: the operand at the clamped id of row `k`. -/
theorem vecGather_apply {α : Type} {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (k : Fin e) :
    Host.gather (vecGatherDims n e wf) x idx (ix1 k) = x (ix1 (clampRow n hn (idx (ix2 k (0 : Fin 1))))) := by
  unfold Host.gather
  congr 1
  funext a
  obtain rfl : a = 0 := Subsingleton.elim _ _
  refine Fin.ext ?_
  show (vecGatherDims n e wf).start (ix1 k) idx 0 + (vecGatherDims n e wf).batchCoord (ix1 k) 0
    + (vecGatherDims n e wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n e wf).startIndexMap from List.mem_singleton.mpr rfl)]
  have hsi : (vecGatherDims n e wf).siIdx (ix1 k) ⟨List.idxOf (0 : Fin 1) (vecGatherDims n e wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

/-- The dimension numbers of a gather of whole rows of an operand `[n, f]` at indices `[e, 1]` into `[e, f]`. -/
abbrev rowGatherDims (n e f : Nat) (wf : GatherDims.WF ⟨2, ![n, f]⟩ ⟨2, ![e, 1]⟩ ⟨2, ![e, f]⟩ [1] [0] [] [0] [] 1 ![1, f]) :
    GatherDims ⟨2, ![n, f]⟩ ⟨2, ![e, 1]⟩ ⟨2, ![e, f]⟩ where
  offsetDims := [1]
  collapsedSliceDims := [0]
  operandBatchingDims := []
  startIndicesBatchingDims := []
  startIndexMap := [0]
  indexVectorDim := 1
  sliceSizes := ![1, f]
  wf := wf

/-- THE ROW GATHER READ AT `(k, c)`: column `c` of the operand's row at the clamped id of row `k`. -/
theorem rowGather_apply {α : Type} {n e f w : Nat} (hn : 0 < n)
    (wf : GatherDims.WF ⟨2, ![n, f]⟩ ⟨2, ![e, 1]⟩ ⟨2, ![e, f]⟩ [1] [0] [] [0] [] 1 ![1, f])
    (x : (⟨2, ![n, f]⟩ : Shape).Idx → α) (idx : IVec ⟨2, ![e, 1]⟩ w) (k : Fin e) (c : Fin f) :
    Host.gather (rowGatherDims n e f wf) x idx (ix2 k c) = x (ix2 (clampRow n hn (idx (ix2 k (0 : Fin 1)))) c) := by
  unfold Host.gather
  congr 1
  funext a
  refine Fin.ext ?_
  match a with
  | ⟨0, _⟩ =>
    show (rowGatherDims n e f wf).start (ix2 k c) idx 0 + (rowGatherDims n e f wf).batchCoord (ix2 k c) 0
      + (rowGatherDims n e f wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e f wf).startIndexMap from List.mem_singleton.mpr rfl)]
    have hsi : (rowGatherDims n e f wf).siIdx (ix2 k c) ⟨List.idxOf (0 : Fin 2) (rowGatherDims n e f wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowGatherDims n e f wf).start (ix2 k c) idx 1 + (rowGatherDims n e f wf).batchCoord (ix2 k c) 1
      + (rowGatherDims n e f wf).offCoord (ix2 k c) 1 = c.val
    rw [GatherDims.batchCoord_eq_zero _ _ _ List.not_mem_nil]
    have hs : (rowGatherDims n e f wf).start (ix2 k c) idx 1 = 0 := by
      unfold GatherDims.start
      rw [dif_neg (show ¬ (1 : Fin 2) ∈ ([0] : List (Fin 2)) by decide)]
    have ho : (rowGatherDims n e f wf).offCoord (ix2 k c) 1 = c.val := by
      unfold GatherDims.offCoord
      rw [dif_pos (show (1 : Fin 2) ∈ (rowGatherDims n e f wf).sKept from
        (GatherDims.mem_sKept _ _).mpr
          ⟨(show ¬ (1 : Fin 2) ∈ ([0] : List (Fin 2)) by decide), List.not_mem_nil⟩)]
      rfl
    rw [hs, ho, Nat.zero_add]

end Idealize.ShloMosaic.RowOps

end
-- ==== Proof.LibColumnRead.lean ====
/-
  Two reads of a vector laid into a matrix, generic in the extents.

  A length-N vector broadcast to the column [N,1] and then along the lanes to [N,M] reads, at (p, k), the vector's
  entry p (the host's spelling of a per-row factor).  A length-N vector cast to the one row [1,N] reads, at (0, q),
  its entry q (the reshape under which a kernel receives a bias row).
-/
import Idealize.ShloMosaic.Lib.Pipeline.Value
import Idealize.ShloMosaic.Lib.ValueIdx

namespace Cert.LibColumnRead

open Idealize.ShloMosaic Idealize.ShloMosaic.ValueIdx

/-- A vector broadcast to a column and then along the lanes reads, at (p, k), the vector's entry p. -/
theorem col_bcast_apply {α : Type} {N M : ℕ} (n : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, M]⟩ ![0, 1]) (p : Fin N) (k : Fin M) :
    broadcastInDim ⟨2, ![N, M]⟩ ![0, 1] h2 (broadcastInDim ⟨2, ![N, 1]⟩ ![0] h1 n) (ix2 p k) = n (ix1 p) := by
  refine (broadcastInDim_apply ![0, 1] h2 _ (ix2 p k) (ix2 p (0 : Fin 1)) ?_).trans ?_
  · intro a
    match a with
    | ⟨0, _⟩ =>
      show p.val = if N = 1 then 0 else p.val
      split
      · have := p.isLt; omega
      · rfl
    | ⟨1, _⟩ => rfl
  · refine broadcastInDim_apply ![0] h1 n (ix2 p (0 : Fin 1)) (ix1 p) ?_
    intro a
    match a with
    | ⟨0, _⟩ =>
      show p.val = if N = 1 then 0 else p.val
      split
      · have := p.isLt; omega
      · rfl

/-- A vector cast to one row reads, at (0, q), its entry q. -/
theorem row_cast_apply {α : Type} {N : ℕ} (b : (⟨1, ![N]⟩ : Shape).Idx → α)
    (h : (⟨1, ![N]⟩ : Shape).ShapeCasts ⟨2, ![1, N]⟩) (u : Fin 1) (q : Fin N) :
    shapeCast ⟨2, ![1, N]⟩ b h (ix2 u q) = b (ix1 q) :=
  shapeCast_apply b h (ix2 u q) (ix1 q) (by
    have hu : u.val = 0 := by omega
    rw [Shape.rowMajor_val_two, Shape.rowMajor_val_one]
    show q.val = u.val * N + q.val
    rw [hu]; omega)

end Cert.LibColumnRead
-- ==== Proof.LibEdgeMessages.lean ====
/-
  Messages along the edges of a graph, read at an entry; generic in the number of nodes n, of edges e and of
  features f.

  Every edge k has a source node, a target node and a weight.  With d a number per node, the normalised weight of
  edge k is  d(source k) * weight k * d(target k).  A layer of message passing takes a row of f numbers per node,
  h, sends along every edge the source's row scaled by the edge's normalised weight, and adds up at every node the
  rows that arrive there:

      out(p, q) = z(p, q) + sum over the edges k with target k = p of  nrm k * h(source k, q).

  The host writes this with a gather of rows (the node ids clamped into [0, n - 1]), two broadcasts that lay the
  per-edge factor along the features, a product, and an accumulating scatter whose row ids are read as signed
  integers, an id outside [0, n) dropping its row.  Two vectors joined end to end read the first vector on the first
  positions and the second on the rest.
-/
import Idealize.ShloMosaic.PureOps.Ideal
import Idealize.ShloMosaic.Lib.ValueIdx
import Idealize.ShloMosaic.Lib.Pipeline.Value
import proofs.«137460_j21784074125836_1_alg».proof.Proof.LibRowOps
import proofs.«137460_j21784074125836_1_alg».proof.Proof.LibColumnRead

noncomputable section

open scoped BigOperators

namespace Cert.LibEdgeMessages

open Idealize.ShloMosaic Idealize.ShloMosaic.ValueIdx Idealize.ShloMosaic.RowOps

/-- A vector laid as a column reads, at (k, 0), its entry k. -/
theorem column_apply {α : Type} {e : ℕ} (x : (⟨1, ![e]⟩ : Shape).Idx → α)
    (h1 : (⟨1, ![e]⟩ : Shape).BroadcastsInDim ⟨2, ![e, 1]⟩ ![0]) (k : Fin e) (u : Fin 1) :
    broadcastInDim ⟨2, ![e, 1]⟩ ![0] h1 x (ix2 k u) = x (ix1 k) := by
  refine broadcastInDim_apply ![0] h1 x (ix2 k u) (ix1 k) ?_
  intro a
  match a with
  | ⟨0, _⟩ =>
    show k.val = if e = 1 then 0 else k.val
    split
    · have := k.isLt; omega
    · rfl

/-- Two vectors joined end to end read, on the first positions, the first vector. -/
theorem joined_left {α : Type} {a b c : ℕ} (x : (⟨1, ![a]⟩ : Shape).Idx → α) (y : (⟨1, ![b]⟩ : Shape).Idx → α)
    (h : Shape.Concatenates [(⟨1, ![a]⟩ : Shape), ⟨1, ![b]⟩] ⟨1, ![c]⟩ 0) (k : Fin a) (kc : Fin c) (hk : kc.val = k.val) :
    concatenate ⟨1, ![c]⟩ 0 [⟨⟨1, ![a]⟩, x⟩, ⟨⟨1, ![b]⟩, y⟩] h (ix1 kc) = x (ix1 k) := by
  refine concatenate_pair_apply_left 0 x y h (ix1 kc) rfl (ix1 k) ?_
  intro d
  match d with
  | ⟨0, _⟩ => exact hk.symm

/-- Two vectors joined end to end read, past the first vector's length, the second vector. -/
theorem joined_right {α : Type} {a b c : ℕ} (x : (⟨1, ![a]⟩ : Shape).Idx → α) (y : (⟨1, ![b]⟩ : Shape).Idx → α)
    (h : Shape.Concatenates [(⟨1, ![a]⟩ : Shape), ⟨1, ![b]⟩] ⟨1, ![c]⟩ 0) (v : Fin b) (kc : Fin c) (hk : kc.val = a + v.val) :
    concatenate ⟨1, ![c]⟩ 0 [⟨⟨1, ![a]⟩, x⟩, ⟨⟨1, ![b]⟩, y⟩] h (ix1 kc) = y (ix1 v) := by
  refine concatenate_pair_apply_right 0 x y h (ix1 kc) rfl rfl (ix1 v) ?_ ?_
  · intro d hd
    match d with
    | ⟨0, _⟩ => exact absurd rfl hd
  · show v.val + a = kc.val
    omega

/-- The normalised weight of edge k: d at its (clamped) source, times its weight, times d at its (clamped) target. -/
theorem edge_norm_apply {n e w : ℕ} (hn : 0 < n)
    (wfg : GatherDims.WF ⟨1, ![n]⟩ ⟨2, ![e, 1]⟩ ⟨1, ![e]⟩ [] [0] [] [0] [] 1 ![1])
    (h1 : (⟨1, ![e]⟩ : Shape).BroadcastsInDim ⟨2, ![e, 1]⟩ ![0])
    (d : FVec Ideal ⟨1, ![n]⟩ .f32) (src tgt : IVec ⟨1, ![e]⟩ w) (wt : FVec Ideal ⟨1, ![e]⟩ .f32) (k : Fin e) :
    mulf (mulf (Host.gather (vecGatherDims n e wfg) d (broadcastInDim ⟨2, ![e, 1]⟩ ![0] h1 src)) wt)
        (Host.gather (vecGatherDims n e wfg) d (broadcastInDim ⟨2, ![e, 1]⟩ ![0] h1 tgt)) (ix1 k)
      = d (ix1 (clampRow n hn (src (ix1 k)))) * wt (ix1 k) * d (ix1 (clampRow n hn (tgt (ix1 k)))) := by
  rw [mulf_apply, mulf_apply, vecGather_apply hn, vecGather_apply hn, column_apply, column_apply]

/-- THE MESSAGES SUMMED AT A NODE: entry (p, q) of the scatter is the operand there plus, over the edges whose target
    is p, the edge's factor times feature q of the (clamped) source's row. -/
theorem messages_apply {n e f w : ℕ} (hn : 0 < n)
    (wfs : ScatterDims.WF ⟨2, ![n, f]⟩ ⟨2, ![e, 1]⟩ ⟨2, ![e, f]⟩ [1] [0] [0] 1)
    (wfg : GatherDims.WF ⟨2, ![n, f]⟩ ⟨2, ![e, 1]⟩ ⟨2, ![e, f]⟩ [1] [0] [] [0] [] 1 ![1, f])
    (h1 : (⟨1, ![e]⟩ : Shape).BroadcastsInDim ⟨2, ![e, 1]⟩ ![0])
    (h2 : (⟨2, ![e, 1]⟩ : Shape).BroadcastsInDim ⟨2, ![e, f]⟩ ![0, 1])
    (z h : FVec Ideal ⟨2, ![n, f]⟩ .f32) (src tgt : IVec ⟨1, ![e]⟩ w) (nrm : FVec Ideal ⟨1, ![e]⟩ .f32)
    (p : Fin n) (q : Fin f) :
    Host.scatterAdd (rowsDims n e f wfs) z (broadcastInDim ⟨2, ![e, 1]⟩ ![0] h1 tgt)
        (mulf (broadcastInDim ⟨2, ![e, f]⟩ ![0, 1] h2 (broadcastInDim ⟨2, ![e, 1]⟩ ![0] h1 nrm))
          (Host.gather (rowGatherDims n e f wfg) h (broadcastInDim ⟨2, ![e, 1]⟩ ![0] h1 src))) (ix2 p q)
      = z (ix2 p q) + ∑ k : Fin e, if (tgt (ix1 k)).toInt = (p.val : ℤ)
          then nrm (ix1 k) * h (ix2 (clampRow n hn (src (ix1 k))) q) else 0 := by
  show Ideal.hostScatterAdd (rowsDims n e f wfs) z _ _ (ix2 p q) = _
  rw [rows_apply]
  refine congrArg (z (ix2 p q) + ·) (Finset.sum_congr rfl fun k _ => ?_)
  rw [column_apply, mulf_apply, Cert.LibColumnRead.col_bcast_apply, rowGather_apply hn, column_apply]

end Cert.LibEdgeMessages

end
-- ==== Proof.AggSpec.lean ====
/-
  One round of neighbourhood aggregation with self loops, and the two-layer network, as functions of indices on the
  extended reals (100000 nodes, 1600000 edges, 64 features).

  Edge k has a source id and a target id, 32-bit words, and a weight.  An id that is used to LOOK A ROW UP names the
  node "the id, plus 100000 if it is below zero, clamped into [0, 99999]"; an id that says WHERE A ROW IS ADDED is read
  as a signed integer, and a row whose id is outside [0, 100000) is dropped.  With d a number per node, the
  normalised weight of edge k is  d(source k) * weight k * d(target k),  and one round of aggregation of node
  features h is

      agg(h)(p, q) = (0 + sum over the edges k whose target id is p of  norm k * h(source k, q)) + d(p) * d(p) * h(p, q),

  the last term being the node's self loop.  The network is two rounds, each after a dense product and followed by a
  bias and the positive part.
-/
import Idealize.ShloMosaic.PureOps.Ideal
import Idealize.ShloMosaic.Lib.ValueIdx
import proofs.«137460_j21784074125836_1_alg».proof.Proof.GcnSpec
import proofs.«137460_j21784074125836_1_alg».proof.Proof.LibRowOps

noncomputable section

open scoped BigOperators

namespace Cert.GcnSpec

open Idealize.ShloMosaic Idealize.ShloMosaic.ValueIdx Idealize.ShloMosaic.RowOps

/-- One number per node. -/
abbrev SV : Shape := ⟨1, ![100000]⟩
/-- One number per edge. -/
abbrev SE : Shape := ⟨1, ![1600000]⟩

/-- An id wrapped: 100000 is added to an id below zero. -/
def wrapWord (x : BitVec 32) : BitVec 32 := Scalar.select (IntOp.cmpi .slt x 0#32) (IntOp.addi x 100000#32) x

/-- The node an id names when a row is looked up: wrapped, then clamped into [0, 99999]. -/
def nodeOf (x : BitVec 32) : Fin 100000 := clampRow 100000 (by decide) (wrapWord x)

/-- The normalised weight of edge k: d at its source, times its weight, times d at its target. -/
def edgeNorm (d : SV.Idx → EReal) (row col : IVec SE 32) (ew : SE.Idx → EReal) (k : Fin 1600000) : EReal :=
  d (ix1 (nodeOf (row (ix1 k)))) * ew (ix1 k) * d (ix1 (nodeOf (col (ix1 k))))

/-- One round of aggregation with self loops. -/
def agg (d : SV.Idx → EReal) (row col : IVec SE 32) (ew : SE.Idx → EReal) (h : SN.Idx → EReal) : SN.Idx → EReal :=
  fun j =>
    (0 + ∑ k : Fin 1600000, if (col (ix1 k)).toInt = (((j 0 : Fin 100000).val : ℕ) : ℤ)
        then edgeNorm d row col ew k * h (ix2 (nodeOf (row (ix1 k))) (j 1 : Fin 64)) else 0)
      + (d (ix1 (j 0 : Fin 100000)) * d (ix1 (j 0 : Fin 100000))) * h j

theorem agg_apply (d : SV.Idx → EReal) (row col : IVec SE 32) (ew : SE.Idx → EReal) (h : SN.Idx → EReal)
    (p : Fin 100000) (q : Fin 64) :
    agg d row col ew h (ix2 p q)
      = (0 + ∑ k : Fin 1600000, if (col (ix1 k)).toInt = ((p.val : ℕ) : ℤ)
            then edgeNorm d row col ew k * h (ix2 (nodeOf (row (ix1 k))) q) else 0)
          + (d (ix1 p) * d (ix1 p)) * h (ix2 p q) := rfl

/-- A bias vector read as a matrix of one row. -/
def rowOf (b : (⟨1, ![64]⟩ : Shape).Idx → EReal) : SB.Idx → EReal := fun j => b (ix1 (j 1 : Fin 64))

theorem rowOf_apply (b : (⟨1, ![64]⟩ : Shape).Idx → EReal) (u : Fin 1) (q : Fin 64) : rowOf b (ix2 u q) = b (ix1 q) := rfl

/-- The two-layer network: a dense product, aggregation, bias and positive part, twice. -/
def gcn (d : SV.Idx → EReal) (row col : IVec SE 32) (ew : SE.Idx → EReal) (x : SN.Idx → EReal)
    (w1 : SW.Idx → EReal) (b1 : SB.Idx → EReal) (w2 : SW.Idx → EReal) (b2 : SB.Idx → EReal) : SN.Idx → EReal :=
  biasRelu (agg d row col ew (mm (biasRelu (agg d row col ew (mm x w1)) b1) w2)) b2

end Cert.GcnSpec

end
-- ==== Proof.KernelAgg.lean ====
/-
  The idealized kernel's aggregation is the aggregation of the specification.

  Entry (p, q) of the host's accumulating scatter of the scaled source rows is the zero it starts from plus, over the
  edges whose target id is p, the edge's normalised weight times feature q of the source's row; the kernel then adds the
  node's own row scaled by d(p) * d(p).  The normalised weight of an edge is d looked up at the wrapped source and
  target ids around the edge's weight.
-/
import Idealize.ShloMosaic.Lib.IdealHost
import proofs.«137460_j21784074125836_1_alg».proof.Proof.KernelTerms
import proofs.«137460_j21784074125836_1_alg».proof.Proof.LibEdgeMessages
import proofs.«137460_j21784074125836_1_alg».proof.Proof.AggSpec

noncomputable section

open scoped BigOperators

namespace Cert.KernelIdeal.Agg

open Cert.KernelIdeal Cert.KernelIdeal.Gen Cert.KernelIdeal.Terms Cert.GcnSpec Cert.LibEdgeMessages
open Idealize.ShloMosaic Idealize.ShloMosaic.ValueIdx Idealize.ShloMosaic.RowOps

/-- The wrap of an array of ids, at an entry, is the wrap of that entry. -/
theorem wrapK_apply (x : IVec S1600000 32) (k : Fin 1600000) : wrapK x (ix1 k) = wrapWord (x (ix1 k)) := by
  unfold wrapK wrapWord
  rw [select_apply]
  show Scalar.select (IntOp.cmpi .slt (x (ix1 k)) (broadcastInDim S1600000 ![] bcast_S_S1600000 (constantI S_ 32 0#32) (ix1 k)))
      (IntOp.addi (x (ix1 k)) (broadcastInDim S1600000 ![] bcast_S_S1600000 (constantI S_ 32 100000#32) (ix1 k))) (x (ix1 k)) = _
  rw [broadcastInDim_scalar_apply, broadcastInDim_scalar_apply]
  rfl

/-- The kernel's normalised edge weights, at an edge. -/
theorem normK_apply (d : FVec Ideal S100000 .f32) (row col : IVec S1600000 32) (ew : FVec Ideal S1600000 .f32)
    (k : Fin 1600000) : normK d row col ew (ix1 k) = edgeNorm d row col ew k := by
  unfold normK edgeNorm nodeOf
  refine (edge_norm_apply (n := 100000) (e := 1600000) (by decide) gather_S100000_S1600000x1_S1600000_n_0_n_n_0_1_1_wf
    bcast_S1600000_S1600000x1_0 d (wrapK row) (wrapK col) ew k).trans ?_
  rw [wrapK_apply, wrapK_apply]

/-- THE KERNEL'S AGGREGATE: the edges' messages summed at their targets, plus the self term. -/
theorem aggK_eq (d : FVec Ideal S100000 .f32) (row col : IVec S1600000 32) (ew : FVec Ideal S1600000 .f32)
    (h : FVec Ideal S100000x64 .f32) : aggK d row col (normK d row col ew) h = agg d row col ew h := by
  funext j
  obtain ⟨p, q, rfl⟩ : ∃ (p : Fin 100000) (q : Fin 64), j = ix2 p q := ⟨j 0, j 1, eq_ix2 j⟩
  rw [agg_apply]
  unfold aggK
  rw [addf_apply]
  refine congrArg₂ (· + ·) ?_ ?_
  · refine (messages_apply (n := 100000) (e := 1600000) (f := 64) (by decide)
      scatter_S100000x64_S1600000x1_S1600000x64_1_0_0_1_wf gather_S100000x64_S1600000x1_S1600000x64_1_0_n_n_0_1_164_wf
      bcast_S1600000_S1600000x1_0 bcast_S1600000x1_S1600000x64_0_1 _ h (wrapK row) col (normK d row col ew) p q).trans ?_
    refine congrArg₂ (· + ·) ?_ (Finset.sum_congr rfl fun k _ => ?_)
    · exact Ideal.ofBits_zero_f32
    · rw [normK_apply, wrapK_apply]
      rfl
  · rw [mulf_apply, Cert.LibColumnRead.col_bcast_apply, mulf_apply]

end Cert.KernelIdeal.Agg

end
-- ==== Proof.KernelValue.lean ====
/-
  The idealized kernel computes the two-layer network of the specification.

  Its result array is what the third pipelined computation leaves: the second aggregate with the second bias added and
  the positive part taken.  The second aggregate is of what the second pipelined computation leaves, the dense product
  by the second weights of the first aggregate with the first bias added and the positive part taken; and the first
  aggregate is of what the first pipelined computation leaves, the dense product of the node features by the first
  weights.  Both aggregates use the same d, sources, targets and normalised weights, computed once from the edge list
  and the edge weights.  A bias vector cast to one row reads, in that row, the vector.
-/
import proofs.«137460_j21784074125836_1_alg».proof.Proof.KernelRun
import proofs.«137460_j21784074125836_1_alg».proof.Proof.KernelHost
import proofs.«137460_j21784074125836_1_alg».proof.Proof.KernelBlocks
import proofs.«137460_j21784074125836_1_alg».proof.Proof.KernelAgg
import proofs.«137460_j21784074125836_1_alg».proof.Proof.AggSpec
import proofs.«137460_j21784074125836_1_alg».proof.Proof.LibColumnRead

set_option maxRecDepth 16384

noncomputable section

namespace Cert.KernelIdeal.Result

open Cert.KernelIdeal Cert.KernelIdeal.Gen Cert.KernelIdeal.Terms Cert.KernelIdeal.Host Cert.KernelIdeal.Blocks
open Cert.KernelIdeal.Agg Cert.GcnSpec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A bias vector cast to one row is the vector read as a one-row matrix. -/
theorem biasRowK_eq (b : FVec Ideal S64 .f32) : biasRowK b = rowOf b := by
  funext j
  obtain ⟨u, q, rfl⟩ : ∃ (u : Fin 1) (q : Fin 64), j = ix2 u q := ⟨j 0, j 1, eq_ix2 j⟩
  exact Cert.LibColumnRead.row_cast_apply b shapeCasts_S64_S1x64 u q

/-- The first dense product's array: the node features by the first weights. -/
theorem first_product : W4 m ρ c (Proc.devRef .tc main_v31) = mm (m ((c : Thread nD τ).loc main_arg0)) (m ((c : Thread nD τ).loc main_arg3)) :=
  (e4_main_v31 m ρ c).trans ((arr0 (V3 m ρ) c).trans (congrArg₂ mm (e3_main_arg0 m ρ c) (e3_main_arg3 m ρ c)))

/-- The second dense product's array: the first aggregate, biased and rectified, by the second weights. -/
theorem second_product : W6 m ρ c (Proc.devRef .tc main_v51)
    = mm (biasRelu (aggK (dinvK (F := Ideal) (m ((c : Thread nD τ).loc main_arg1)) (m ((c : Thread nD τ).loc main_arg2))) (rowK (m ((c : Thread nD τ).loc main_arg1))) (colK (m ((c : Thread nD τ).loc main_arg1))) (normK (dinvK (F := Ideal) (m ((c : Thread nD τ).loc main_arg1)) (m ((c : Thread nD τ).loc main_arg2))) (rowK (m ((c : Thread nD τ).loc main_arg1))) (colK (m ((c : Thread nD τ).loc main_arg1))) (m ((c : Thread nD τ).loc main_arg2))) (W4 m ρ c (Proc.devRef .tc main_v31))) (biasRowK (F := Ideal) (m ((c : Thread nD τ).loc main_arg4))))
        (m ((c : Thread nD τ).loc main_arg5)) :=
  (e6_main_v51 m ρ c).trans ((arr1 (V5 m ρ) c).trans
    (congrArg₂ mm (congrArg₂ biasRelu (e5_main_v49 m ρ c) (e5_main_v50 m ρ c)) (e5_main_arg5 m ρ c)))

/-- The result array: the second aggregate, biased and rectified. -/
theorem last_step : W8 m ρ c (Proc.devRef .tc main_v71)
    = biasRelu (aggK (dinvK (F := Ideal) (m ((c : Thread nD τ).loc main_arg1)) (m ((c : Thread nD τ).loc main_arg2))) (rowK (m ((c : Thread nD τ).loc main_arg1))) (colK (m ((c : Thread nD τ).loc main_arg1))) (normK (dinvK (F := Ideal) (m ((c : Thread nD τ).loc main_arg1)) (m ((c : Thread nD τ).loc main_arg2))) (rowK (m ((c : Thread nD τ).loc main_arg1))) (colK (m ((c : Thread nD τ).loc main_arg1))) (m ((c : Thread nD τ).loc main_arg2))) (W6 m ρ c (Proc.devRef .tc main_v51))) (biasRowK (F := Ideal) (m ((c : Thread nD τ).loc main_arg6))) :=
  (e8_main_v71 m ρ c).trans ((arr2 (V7 m ρ) c).trans (congrArg₂ biasRelu (e7_main_v69 m ρ c) (e7_main_v70 m ρ c)))

/-- THE KERNEL'S RESULT ARRAY is the network of the specification, of the argument arrays as launched. -/
theorem result_eq : W8 m ρ c (Proc.devRef .tc main_v71)
    = gcn (dinvK (F := Ideal) (m ((c : Thread nD τ).loc main_arg1)) (m ((c : Thread nD τ).loc main_arg2))) (rowK (m ((c : Thread nD τ).loc main_arg1))) (colK (m ((c : Thread nD τ).loc main_arg1))) (m ((c : Thread nD τ).loc main_arg2))
        (m ((c : Thread nD τ).loc main_arg0)) (m ((c : Thread nD τ).loc main_arg3)) (rowOf (m ((c : Thread nD τ).loc main_arg4))) (m ((c : Thread nD τ).loc main_arg5)) (rowOf (m ((c : Thread nD τ).loc main_arg6))) := by
  rw [last_step m ρ c, second_product m ρ c, first_product m ρ c, aggK_eq, aggK_eq, biasRowK_eq, biasRowK_eq]
  rfl

/-- Every weakly fair execution terminates, nothing faulting, with the result at the network of the arguments and the
    arguments unchanged. -/
theorem run : θ_run defs (onTc (τ := τ) (main (F := Ideal))) ⟨m, fun _ => 0, ρ⟩ (fun r => ∀ c : Dev nD,
      r.2.mem ((c.tc : Thread nD τ).loc main_v71) = gcn (dinvK (F := Ideal) (m ((c : Thread nD τ).loc main_arg1)) (m ((c : Thread nD τ).loc main_arg2))) (rowK (m ((c : Thread nD τ).loc main_arg1))) (colK (m ((c : Thread nD τ).loc main_arg1))) (m ((c : Thread nD τ).loc main_arg2))
        (m ((c : Thread nD τ).loc main_arg0)) (m ((c : Thread nD τ).loc main_arg3)) (rowOf (m ((c : Thread nD τ).loc main_arg4))) (m ((c : Thread nD τ).loc main_arg5)) (rowOf (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Cert.KernelIdeal.Named.run_named m ρ)

end Cert.KernelIdeal.Result

end
-- ==== Proof.LibSelfLoops.lean ====
/-
  Self loops appended to an edge list, generic in the number of nodes n and of edges e.

  A graph convolution that gives every node a loop to itself can be written in two ways: by appending the n loops
  (v, v) to the e edges and summing, at every node, over the e + n entries that arrive there; or by summing over the
  e edges only and adding the node's own term afterwards.  The two agree: among the appended entries exactly one, the
  node's own loop, arrives at node p.  Only that a sum over e + n positions is the sum over the first e plus the sum
  over the last n is used, so nothing is asked of the summands (infinite values included).

  A node id v < n <= 2^31 held in a 32-bit word reads back, as a signed integer, as v: it is not negative, so an id
  wrapped when negative is left alone, and clamped into [0, n - 1] it is v.
-/
import Mathlib.Algebra.BigOperators.Fin
import Mathlib.Data.EReal.Basic
import Idealize.ShloMosaic.Lib.Affine
import proofs.«137460_j21784074125836_1_alg».proof.Proof.LibRowOps

noncomputable section

open scoped BigOperators

namespace Cert.LibSelfLoops

open Idealize.ShloMosaic Idealize.ShloMosaic.RowOps

/-- The entries that arrive at node p, summed over e edges followed by the n self loops: the edges' part plus the
    node's own term. -/
theorem sum_with_self_loops {M : Type} [AddCommMonoid M] {n e : ℕ} (p : Fin n)
    (tgtE : Fin e → ℤ) (msgE : Fin e → M) (tgtJ : Fin (e + n) → ℤ) (msgJ : Fin (e + n) → M) (own : Fin n → M)
    (hEt : ∀ k : Fin e, tgtJ (Fin.castAdd n k) = tgtE k) (hEm : ∀ k : Fin e, msgJ (Fin.castAdd n k) = msgE k)
    (hSt : ∀ v : Fin n, tgtJ (Fin.natAdd e v) = (v.val : ℤ)) (hSm : ∀ v : Fin n, msgJ (Fin.natAdd e v) = own v) :
    (∑ k : Fin (e + n), if tgtJ k = (p.val : ℤ) then msgJ k else 0)
      = (∑ k : Fin e, if tgtE k = (p.val : ℤ) then msgE k else 0) + own p := by
  rw [Fin.sum_univ_add]
  congr 1
  · exact Finset.sum_congr rfl fun k _ => by rw [hEt, hEm]
  · rw [Finset.sum_eq_single p]
    · rw [hSt, hSm, if_pos rfl]
    · intro v _ hv
      rw [hSt, if_neg]
      intro h
      exact hv (Fin.ext (by exact_mod_cast h))
    · intro h; exact absurd (Finset.mem_univ p) h

/-- A number below 2^31, as a 32-bit word, is that number as a signed integer. -/
theorem toInt_ofNat_lt {v : ℕ} (h : v < 2 ^ 31) : (BitVec.ofNat 32 v).toInt = (v : ℤ) := by
  have h1 : (BitVec.ofNat 32 v).toNat = v := by
    rw [BitVec.toNat_ofNat]; exact Nat.mod_eq_of_lt (by omega)
  rw [BitVec.toInt_eq_toNat_cond, h1]
  split
  · rfl
  · omega

/-- A node id held in a word, clamped into [0, n - 1], is the node. -/
theorem clampRow_ofNat {n : ℕ} (hn : 0 < n) (h31 : n ≤ 2 ^ 31) (v : Fin n) :
    clampRow n hn (BitVec.ofNat 32 v.val) = v := by
  refine Fin.ext ?_
  show min (BitVec.ofNat 32 v.val).toInt.toNat (n - 1) = v.val
  rw [toInt_ofNat_lt (by have := v.isLt; omega)]
  have := v.isLt
  simp only [Int.toNat_natCast]
  omega

/-- A word that is not negative is left alone by the wrap "add n when below zero". -/
theorem wrap_word_nonneg (x z nn : BitVec 32) (hz : z = 0#32) (hx : 0 ≤ x.toInt) :
    Scalar.select (IntOp.cmpi .slt x z) (IntOp.addi x nn) x = x := by
  unfold Scalar.select
  rw [if_neg]
  intro hc
  rw [hz] at hc
  have hlt : x.toInt < (0#32 : BitVec 32).toInt := IntOp.cmpi_slt.1 hc
  have h0 : (0#32 : BitVec 32).toInt = 0 := by decide
  omega

end Cert.LibSelfLoops

end
-- ==== Proof.RefAgg.lean ====
/-
  The idealized reference's aggregation is the aggregation of the specification.

  The reference appends to the 1600000 edges the 100000 self loops (v, v) of weight 1 and sums, at every node, over
  all 1700000 entries.  On the first 1600000 positions its joined arrays read the edge list and the edge weights; on
  position 1600000 + v they read the node id v (not negative, so left alone by the wrap, and naming node v) and the
  weight 1.  Among the appended entries only node p's own loop arrives at p, with the factor d(p) * 1 * d(p): the
  sum over 1700000 entries is the sum over the edges plus the node's self term.
-/
import Idealize.ShloMosaic.Lib.IdealHost
import proofs.«137460_j21784074125836_1_alg».proof.Proof.Gen.ReferenceIdeal.Read
import proofs.«137460_j21784074125836_1_alg».proof.Proof.LibEdgeMessages
import proofs.«137460_j21784074125836_1_alg».proof.Proof.LibSelfLoops
import proofs.«137460_j21784074125836_1_alg».proof.Proof.AggSpec

noncomputable section

open scoped BigOperators

namespace Cert.ReferenceIdeal.Agg

open Cert.ReferenceIdeal Cert.ReferenceIdeal.Gen Cert.ReferenceIdeal.Read Cert.GcnSpec Cert.LibEdgeMessages Cert.LibSelfLoops
open Idealize.ShloMosaic Idealize.ShloMosaic.ValueIdx Idealize.ShloMosaic.RowOps

variable (x1 : IVec S2x1600000 32) (x2 : FVec Ideal S1600000 .f32)

/-! ## The joined arrays, on the edges and on the self loops -/

theorem srcJ_edge (k : Fin 1600000) (kc : Fin 1700000) (hk : kc.val = k.val) :
    val_main_v5 (F := Ideal) x1 (ix1 kc) = val_main_v1 (F := Ideal) x1 (ix1 k) := by
  unfold val_main_v5; exact joined_left _ _ _ k kc hk

theorem srcJ_loop (v : Fin 100000) (kc : Fin 1700000) (hk : kc.val = 1600000 + v.val) :
    val_main_v5 (F := Ideal) x1 (ix1 kc) = BitVec.ofNat 32 v.val := by
  unfold val_main_v5; exact joined_right _ _ _ v kc hk

theorem tgtJ_edge (k : Fin 1600000) (kc : Fin 1700000) (hk : kc.val = k.val) :
    val_main_v6 (F := Ideal) x1 (ix1 kc) = val_main_v3 (F := Ideal) x1 (ix1 k) := by
  unfold val_main_v6; exact joined_left _ _ _ k kc hk

theorem tgtJ_loop (v : Fin 100000) (kc : Fin 1700000) (hk : kc.val = 1600000 + v.val) :
    val_main_v6 (F := Ideal) x1 (ix1 kc) = BitVec.ofNat 32 v.val := by
  unfold val_main_v6; exact joined_right _ _ _ v kc hk

theorem wtJ_edge (k : Fin 1600000) (kc : Fin 1700000) (hk : kc.val = k.val) :
    val_main_v8 (F := Ideal) x2 (ix1 kc) = x2 (ix1 k) := by
  unfold val_main_v8; exact joined_left _ _ _ k kc hk

theorem wtJ_loop (v : Fin 100000) (kc : Fin 1700000) (hk : kc.val = 1600000 + v.val) :
    val_main_v8 (F := Ideal) x2 (ix1 kc) = (1 : EReal) := by
  unfold val_main_v8
  refine (joined_right _ _ _ v kc hk).trans ?_
  exact Ideal.ofBits_one_f32

/-! ## The wraps, at an entry -/

theorem wrapSrc_apply (kc : Fin 1700000) : val_main_v20 (F := Ideal) x1 (ix1 kc) = wrapWord (val_main_v5 (F := Ideal) x1 (ix1 kc)) := by
  unfold val_main_v20 val_main_v17 val_main_v19 val_main_v16 val_main_v18 val_main_c val_main_c_3 wrapWord
  rw [select_apply]
  show Scalar.select (IntOp.cmpi .slt (val_main_v5 (F := Ideal) x1 (ix1 kc)) (broadcastInDim S1700000 ![] bcast_S_S1700000 (constantI S_ 32 0#32) (ix1 kc)))
      (IntOp.addi (val_main_v5 (F := Ideal) x1 (ix1 kc)) (broadcastInDim S1700000 ![] bcast_S_S1700000 (constantI S_ 32 100000#32) (ix1 kc)))
      (val_main_v5 (F := Ideal) x1 (ix1 kc)) = _
  rw [broadcastInDim_scalar_apply, broadcastInDim_scalar_apply]
  rfl

theorem wrapTgt_apply (kc : Fin 1700000) : val_main_v28 (F := Ideal) x1 (ix1 kc) = wrapWord (val_main_v6 (F := Ideal) x1 (ix1 kc)) := by
  unfold val_main_v28 val_main_v25 val_main_v27 val_main_v24 val_main_v26 val_main_c_4 val_main_c_5 wrapWord
  rw [select_apply]
  show Scalar.select (IntOp.cmpi .slt (val_main_v6 (F := Ideal) x1 (ix1 kc)) (broadcastInDim S1700000 ![] bcast_S_S1700000 (constantI S_ 32 0#32) (ix1 kc)))
      (IntOp.addi (val_main_v6 (F := Ideal) x1 (ix1 kc)) (broadcastInDim S1700000 ![] bcast_S_S1700000 (constantI S_ 32 100000#32) (ix1 kc)))
      (val_main_v6 (F := Ideal) x1 (ix1 kc)) = _
  rw [broadcastInDim_scalar_apply, broadcastInDim_scalar_apply]
  rfl

theorem wrapSrc2_apply (kc : Fin 1700000) : val_main_v38 (F := Ideal) x1 (ix1 kc) = wrapWord (val_main_v5 (F := Ideal) x1 (ix1 kc)) := by
  unfold val_main_v38 val_main_v35 val_main_v37 val_main_v34 val_main_v36 val_main_c_6 val_main_c_7 wrapWord
  rw [select_apply]
  show Scalar.select (IntOp.cmpi .slt (val_main_v5 (F := Ideal) x1 (ix1 kc)) (broadcastInDim S1700000 ![] bcast_S_S1700000 (constantI S_ 32 0#32) (ix1 kc)))
      (IntOp.addi (val_main_v5 (F := Ideal) x1 (ix1 kc)) (broadcastInDim S1700000 ![] bcast_S_S1700000 (constantI S_ 32 100000#32) (ix1 kc)))
      (val_main_v5 (F := Ideal) x1 (ix1 kc)) = _
  rw [broadcastInDim_scalar_apply, broadcastInDim_scalar_apply]
  rfl

/-- The node an id names, spelt out: the wrapped id clamped into [0, 99999]. -/
theorem nodeOf_clamp (x : BitVec 32) : clampRow 100000 (by decide) (wrapWord x) = nodeOf x := rfl

/-- The wrap of a node id 0 <= v < 100000 held in a word names node v. -/
theorem nodeOf_ofNat (v : Fin 100000) : nodeOf (BitVec.ofNat 32 v.val) = v := by
  unfold nodeOf wrapWord
  rw [wrap_word_nonneg _ _ _ rfl (by rw [toInt_ofNat_lt (by have := v.isLt; omega)]; exact Int.natCast_nonneg _)]
  exact clampRow_ofNat (by decide) (by norm_num) v

/-! ## The normalised weights of the 1700000 entries -/

/-- The reference's normalised weight at any entry: d at the wrapped, clamped source and target around the weight. -/
theorem normJ_apply (kc : Fin 1700000) :
    val_main_v31 (F := Ideal) x1 x2 (ix1 kc)
      = val_main_v15 (F := Ideal) x1 x2 (ix1 (nodeOf (val_main_v5 (F := Ideal) x1 (ix1 kc)))) * val_main_v8 (F := Ideal) x2 (ix1 kc)
          * val_main_v15 (F := Ideal) x1 x2 (ix1 (nodeOf (val_main_v6 (F := Ideal) x1 (ix1 kc)))) := by
  unfold val_main_v31 val_main_v23 val_main_v22 val_main_v30 val_main_v21 val_main_v29 nodeOf
  refine (edge_norm_apply (n := 100000) (e := 1700000) (by decide) gather_S100000_S1700000x1_S1700000_n_0_n_n_0_1_1_wf
    bcast_S1700000_S1700000x1_0 (val_main_v15 (F := Ideal) x1 x2) (val_main_v20 (F := Ideal) x1) (val_main_v28 (F := Ideal) x1)
    (val_main_v8 (F := Ideal) x2) kc).trans ?_
  rw [wrapSrc_apply, wrapTgt_apply]

/-! ## The aggregate -/

/-- The reference's first aggregate with the dense product under it replaced by any node features h. -/
def aggR (h : FVec Ideal S100000x64 .f32) : FVec Ideal S100000x64 .f32 :=
  Host.scatterAdd scatter_S100000x64_S1700000x1_S1700000x64_1_0_0_1 (val_main_v43 (F := Ideal)) (val_main_v44 (F := Ideal) x1)
    (mulf (val_main_v41 (F := Ideal) x1 x2)
      (Host.gather gather_S100000x64_S1700000x1_S1700000x64_1_0_n_n_0_1_164 h (val_main_v39 (F := Ideal) x1)))

/-- THE REFERENCE'S AGGREGATE is the specification's, of d, the sources, the targets and the weights it computes. -/
theorem aggR_eq (h : FVec Ideal S100000x64 .f32) :
    aggR x1 x2 h = agg (val_main_v15 (F := Ideal) x1 x2) (val_main_v1 (F := Ideal) x1) (val_main_v3 (F := Ideal) x1) x2 h := by
  funext j
  obtain ⟨p, q, rfl⟩ : ∃ (p : Fin 100000) (q : Fin 64), j = ix2 p q := ⟨j 0, j 1, eq_ix2 j⟩
  rw [agg_apply]
  unfold aggR val_main_v44 val_main_v41 val_main_v33 val_main_v39 val_main_v43 val_main_cst_8
  refine (messages_apply (n := 100000) (e := 1700000) (f := 64) (by decide)
    scatter_S100000x64_S1700000x1_S1700000x64_1_0_0_1_wf gather_S100000x64_S1700000x1_S1700000x64_1_0_n_n_0_1_164_wf
    bcast_S1700000_S1700000x1_0 bcast_S1700000x1_S1700000x64_0_1 _ h (val_main_v38 (F := Ideal) x1) (val_main_v6 (F := Ideal) x1)
    (val_main_v31 (F := Ideal) x1 x2) p q).trans ?_
  rw [show (broadcastInDim S100000x64 ![] bcast_S_S100000x64 (constant (F := Ideal) S_ .f32 0x00000000#32)) (ix2 p q) = (0 : EReal)
    from Ideal.ofBits_zero_f32, add_assoc]
  refine congrArg ((0 : EReal) + ·) ?_
  refine sum_with_self_loops (n := 100000) (e := 1600000) p
    (fun k => (val_main_v3 (F := Ideal) x1 (ix1 k)).toInt)
    (fun k => edgeNorm (val_main_v15 (F := Ideal) x1 x2) (val_main_v1 (F := Ideal) x1) (val_main_v3 (F := Ideal) x1) x2 k
      * h (ix2 (nodeOf (val_main_v1 (F := Ideal) x1 (ix1 k))) q))
    (fun k => (val_main_v6 (F := Ideal) x1 (ix1 k)).toInt)
    (fun k => val_main_v31 (F := Ideal) x1 x2 (ix1 k) * h (ix2 (clampRow 100000 (by decide) (val_main_v38 (F := Ideal) x1 (ix1 k))) q))
    (fun v => (val_main_v15 (F := Ideal) x1 x2 (ix1 v) * val_main_v15 (F := Ideal) x1 x2 (ix1 v)) * h (ix2 v q))
    ?_ ?_ ?_ ?_
  · intro k
    show (val_main_v6 (F := Ideal) x1 (ix1 (Fin.castAdd 100000 k))).toInt = _
    rw [tgtJ_edge x1 k (Fin.castAdd 100000 k) rfl]
  · intro k
    show val_main_v31 (F := Ideal) x1 x2 (ix1 (Fin.castAdd 100000 k))
        * h (ix2 (clampRow 100000 (by decide) (val_main_v38 (F := Ideal) x1 (ix1 (Fin.castAdd 100000 k)))) q) = _
    rw [normJ_apply, wrapSrc2_apply, srcJ_edge x1 k (Fin.castAdd 100000 k) rfl, tgtJ_edge x1 k (Fin.castAdd 100000 k) rfl,
      wtJ_edge x2 k (Fin.castAdd 100000 k) rfl]
    rfl
  · intro v
    show (val_main_v6 (F := Ideal) x1 (ix1 (Fin.natAdd 1600000 v))).toInt = _
    rw [tgtJ_loop x1 v (Fin.natAdd 1600000 v) rfl, toInt_ofNat_lt (by have := v.isLt; omega)]
  · intro v
    show val_main_v31 (F := Ideal) x1 x2 (ix1 (Fin.natAdd 1600000 v))
        * h (ix2 (clampRow 100000 (by decide) (val_main_v38 (F := Ideal) x1 (ix1 (Fin.natAdd 1600000 v)))) q) = _
    rw [normJ_apply, wrapSrc2_apply, srcJ_loop x1 v (Fin.natAdd 1600000 v) rfl, tgtJ_loop x1 v (Fin.natAdd 1600000 v) rfl,
      wtJ_loop x2 v (Fin.natAdd 1600000 v) rfl, nodeOf_clamp, nodeOf_ofNat, mul_one]

end Cert.ReferenceIdeal.Agg

end
-- ==== Proof.RefValue.lean ====
/-
  The idealized reference computes the two-layer network of the specification.

  Each of its two layers is a dense product (the host's general dot product of a [100000, 64] by a [64, 64] matrix, the
  sum over k of x(r, k) * w(k, c)), the aggregation over the edges and the appended self loops, the bias vector
  broadcast to every row and added, and the maximum with a broadcast zero.
-/
import Idealize.ShloMosaic.Lib.IdealHost
import proofs.«137460_j21784074125836_1_alg».proof.Proof.Gen.ReferenceIdeal.Read
import proofs.«137460_j21784074125836_1_alg».proof.Proof.RefAgg
import proofs.«137460_j21784074125836_1_alg».proof.Proof.AggSpec

noncomputable section

open scoped BigOperators

namespace Cert.ReferenceIdeal.Result

open Cert.ReferenceIdeal Cert.ReferenceIdeal.Gen Cert.ReferenceIdeal.Read Cert.ReferenceIdeal.Agg Cert.GcnSpec
open Idealize.ShloMosaic Idealize.ShloMosaic.ValueIdx

/-- The host's dot product of node features by a weight matrix is the dense product. -/
theorem dot_eq (x : FVec Ideal S100000x64 .f32) (w : FVec Ideal S64x64 .f32) :
    Host.dotGeneral dot_S100000x64_S64x64_S100000x64_1_0_0_1_n_n none x w = mm x w := by
  funext j
  obtain ⟨p, q, rfl⟩ : ∃ (p : Fin 100000) (q : Fin 64), j = ix2 p q := ⟨j 0, j 1, eq_ix2 j⟩
  have hs := val_main_v32_apply x w (ix2 p q)
  unfold val_main_v32 at hs
  rw [hs, mm_apply]
  refine Finset.sum_congr rfl fun k _ => ?_
  have el : lidx_main_v32 (ix2 p q) k = ix2 p k := funext fun a => Fin.ext (by
    match a with
    | ⟨0, _⟩ => rfl
    | ⟨1, _⟩ => rfl)
  have er : ridx_main_v32 (ix2 p q) k = ix2 k q := funext fun a => Fin.ext (by
    match a with
    | ⟨0, _⟩ => rfl
    | ⟨1, _⟩ => rfl)
  rw [el, er]

/-- The bias vector broadcast to every row and added, then the maximum with a broadcast zero. -/
theorem bias_relu_eq (a : FVec Ideal S100000x64 .f32) (b : FVec Ideal S64 .f32) :
    maximumf (addf a (val_main_v47 (F := Ideal) b)) (val_main_call1_v0 (F := Ideal)) = biasRelu a (rowOf b) := by
  funext j
  obtain ⟨p, q, rfl⟩ : ∃ (p : Fin 100000) (q : Fin 64), j = ix2 p q := ⟨j 0, j 1, eq_ix2 j⟩
  rw [biasRelu_apply, rowOf_apply, maximumf_apply, addf_apply, val_main_v47_apply, val_main_v46_apply, val_main_call1_v0_apply]
  have e1 : idx_main_v46 (idx_main_v47 (ix2 p q)) = ix1 q := funext fun a => Fin.ext (by
    match a with
    | ⟨0, _⟩ => rfl)
  rw [e1]
  show max _ (Ideal.ofBits .f32 0x00000000#32) = _
  rw [Ideal.ofBits_zero_f32]

/-- The reference's first layer. -/
theorem layer1_eq (x0 : FVec Ideal S100000x64 .f32) (x1 : IVec S2x1600000 32) (x2 : FVec Ideal S1600000 .f32)
    (x3 : FVec Ideal S64x64 .f32) (x4 : FVec Ideal S64 .f32) :
    val_main_v49 (F := Ideal) x0 x1 x2 x3 x4
      = biasRelu (agg (val_main_v15 (F := Ideal) x1 x2) (val_main_v1 (F := Ideal) x1) (val_main_v3 (F := Ideal) x1) x2 (mm x0 x3)) (rowOf x4) := by
  unfold val_main_v49 val_main_v48
  rw [show val_main_v45 (F := Ideal) x0 x1 x2 x3 = aggR x1 x2 (val_main_v32 (F := Ideal) x0 x3) from rfl]
  unfold val_main_v32
  rw [dot_eq, aggR_eq, bias_relu_eq]

/-- THE REFERENCE'S RESULT is the network of the specification, of d, the sources, the targets it computes. -/
theorem result_eq (x0 : FVec Ideal S100000x64 .f32) (x1 : IVec S2x1600000 32) (x2 : FVec Ideal S1600000 .f32)
    (x3 : FVec Ideal S64x64 .f32) (x4 : FVec Ideal S64 .f32) (x5 : FVec Ideal S64x64 .f32) (x6 : FVec Ideal S64 .f32) :
    val_main_v95 (F := Ideal) x0 x1 x2 x3 x4 x5 x6
      = gcn (val_main_v15 (F := Ideal) x1 x2) (val_main_v1 (F := Ideal) x1) (val_main_v3 (F := Ideal) x1) x2 x0 x3 (rowOf x4) x5 (rowOf x6) := by
  unfold val_main_v95 val_main_v94 gcn
  rw [show val_main_v91 (F := Ideal) x0 x1 x2 x3 x4 x5 = aggR x1 x2 (val_main_v78 (F := Ideal) x0 x1 x2 x3 x4 x5) from rfl]
  unfold val_main_v78
  rw [layer1_eq, dot_eq, aggR_eq]
  exact bias_relu_eq _ x6

end Cert.ReferenceIdeal.Result

end
-- ==== Proof.lean ====
/-
  A two-layer graph convolution on 100000 nodes, 1600000 weighted edges and 64 features: a kernel that runs the dense
  parts block by block against a reference that runs them whole.

  Both programs compute, twice over, "dense product, aggregation along the edges with a self loop per node, bias,
  positive part".  With deg(v) the sum of the weights of the edges arriving at v plus 1, d(v) = deg(v)^(-1/2) where
  deg(v) > 0 and 0 elsewhere, and norm(k) = d(source k) * weight k * d(target k), one aggregation of node features h is

      agg(h)(p, q) = sum over the edges k with target p of norm(k) * h(source k, q)  +  d(p) * d(p) * h(p, q).

  The reference appends the self loops (v, v) with weight 1 to the edge list and takes ONE sum over 1700000 entries;
  the kernel sums over the 1600000 edges and adds the self term d(p) * d(p) * h(p, q) afterwards.  The appended entry of
  node v carries d(v) * 1 * d(v) and arrives at v only, so the two sums agree by splitting a finite sum at position
  1600000 and by x * 1 = x; both hold for all extended reals, so no finiteness of the inputs is used.  The kernel
  computes each dense product (and the bias and positive part in front of the second one, and the last bias and
  positive part) in 20 blocks of 5000 rows; an entry of these depends on its own row only, and the blocks cover every
  row, so the arrays the three block computations leave are the whole-array functions.  Rounding the operands of a
  product to bf16 is the identity on extended reals.  The degrees, d, the sources and the targets are the same terms of
  the edge list and the edge weights in both programs.

  The kernel's and the idealized kernel's frames are the generated ones; the reference's frame is its generated run
  with the result forgotten; the idealization rewrote nothing.
-/
import proofs.«137460_j21784074125836_1_alg».proof.Defs
import proofs.«137460_j21784074125836_1_alg».proof.Proof.Gen.Kernel
import proofs.«137460_j21784074125836_1_alg».proof.Proof.Gen.Kernel.Frame
import proofs.«137460_j21784074125836_1_alg».proof.Proof.Gen.KernelIdeal
import proofs.«137460_j21784074125836_1_alg».proof.Proof.Gen.KernelIdeal.Frame
import proofs.«137460_j21784074125836_1_alg».proof.Proof.Gen.ReferenceIdeal
import proofs.«137460_j21784074125836_1_alg».proof.Proof.Gen.ReferenceIdeal.Run
import proofs.«137460_j21784074125836_1_alg».proof.Proof.Gen.ReferenceIdeal.Read
import proofs.«137460_j21784074125836_1_alg».proof.Proof.Gen.Pre_finite_inputs
import proofs.«137460_j21784074125836_1_alg».proof.Proof.KernelValue
import proofs.«137460_j21784074125836_1_alg».proof.Proof.RefValue
import Idealize.ShloMosaic.Adequacy
import Idealize.ShloMosaic.Init

noncomputable section

namespace Cert.Proof

open Idealize.ShloMosaic Idealize.SL.Sem Cert.GcnSpec

/-! ## The two programs compute d, the sources and the targets by the same terms -/

theorem dinv_same (x1 : IVec ⟨2, ![2, 1600000]⟩ 32) (x2 : FVec Ideal ⟨1, ![1600000]⟩ .f32) :
    Cert.ReferenceIdeal.Read.val_main_v15 (F := Ideal) x1 x2 = Cert.KernelIdeal.Terms.dinvK x1 x2 := rfl

theorem row_same (x1 : IVec ⟨2, ![2, 1600000]⟩ 32) :
    Cert.ReferenceIdeal.Read.val_main_v1 (F := Ideal) x1 = Cert.KernelIdeal.Terms.rowK x1 := rfl

theorem col_same (x1 : IVec ⟨2, ![2, 1600000]⟩ 32) :
    Cert.ReferenceIdeal.Read.val_main_v3 (F := Ideal) x1 = Cert.KernelIdeal.Terms.colK x1 := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the network of the specification in their
    result arrays. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v95_eq, Cert.ReferenceIdeal.Result.result_eq, h0, h1, h2, h3, h4, h5, h6,
    dinv_same, row_same, col_same]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
